-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S32000x1024 : Shape := ⟨2, ![32000, 1024]⟩
abbrev S1024x1024 : Shape := ⟨2, ![1024, 1024]⟩
abbrev S1024 : Shape := ⟨1, ![1024]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : IVec S4096 32) (main_arg1 : FVec F S32000x1024 .f32) (main_arg2 : FVec F S32000x1024 .f32) (main_arg3 : FVec F S32000x1024 .f32) (main_arg4 : FVec F S1024x1024 .f32) (main_arg5 : FVec F S1024 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S32000x1024 .f32 := Host.absf main_arg2
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S32000x1024 .f32 := Host.absf main_arg3
  let main_cst_2 : FVec F S_ .f32 := constant S_ .f32 0x7F800000#32
  let main_v10 : FVec F S32000x1024 .f32 := broadcastInDim S32000x1024 ![] bcast_S_S32000x1024 main_cst_2
  let main_v11 : IVec S32000x1024 1 := cmpf .olt main_v9 main_v10
  let main_c_3 : IVec S_ 1 := constantI S_ 1 1#1
  let main_v12 : IVec S_ 1 := (fun x v => Host.reduce IntOp.andi x v reducesTo_S32000x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S4096 : Shape := ⟨1, ![4096]⟩
abbrev S32000x1024 : Shape := ⟨2, ![32000, 1024]⟩
abbrev S1024x1024 : Shape := ⟨2, ![1024, 1024]⟩
abbrev S1024 : Shape := ⟨1, ![1024]⟩
abbrev S_ : Shape := ⟨0, ![]⟩
abbrev S4096x1 : Shape := ⟨2, ![4096, 1]⟩
abbrev S4096x1024 : Shape := ⟨2, ![4096, 1024]⟩
abbrev S800x1024 : Shape := ⟨2, ![800, 1024]⟩
abbrev S1x1024 : Shape := ⟨2, ![1, 1024]⟩
abbrev S640x1024 : Shape := ⟨2, ![640, 1024]⟩
abbrev S1024x1 : Shape := ⟨2, ![1024, 1]⟩
abbrev S1024x640 : Shape := ⟨2, ![1024, 640]⟩

abbrev nBuf : Space → Nat
  | .hbm => 30
  | .vmem => 21
  | .smem => 0
  | _ => 0

abbrev bufTy : (tb : Table) → Fin (tcTables nBuf tb) → BufTy
  | .hbm, ⟨0, _⟩ => ⟨S4096, .i32⟩
  | .hbm, ⟨1, _⟩ => ⟨S32000x1024, .f32⟩
  | .hbm, ⟨2, _⟩ => ⟨S32000x1024, .f32⟩
  | .hbm, ⟨3, _⟩ => ⟨S32000x1024, .f32⟩
  | .hbm, ⟨4, _⟩ => ⟨S1024x1024, .f32⟩
  | .hbm, ⟨5, _⟩ => ⟨S1024, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x1024, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x1024, .f32⟩
  | .hbm, ⟨24, _⟩ => ⟨S1024x1024, .f32⟩
  | .hbm, ⟨25, _⟩ => ⟨S1024x1024, .bf16⟩
  | .hbm, ⟨26, _⟩ => ⟨S4096x1024, .bf16⟩
  | .hbm, ⟨27, _⟩ => ⟨S32000x1024, .bf16⟩
  | .hbm, ⟨28, _⟩ => ⟨S32000x1024, .bf16⟩
  | .hbm, ⟨29, _⟩ => ⟨S4096x1024, .f32⟩
  | .local _ .vmem, ⟨0, _⟩ => ⟨S800x1024, .f32⟩
  | .local _ .vmem, ⟨1, _⟩ => ⟨S800x1024, .f32⟩
  | .local _ .vmem, ⟨2, _⟩ => ⟨S800x1024, .f32⟩
  | .local _ .vmem, ⟨3, _⟩ => ⟨S800x1024, .f32⟩
  | .local _ .vmem, ⟨4, _⟩ => ⟨S1024x1024, .bf16⟩
  | .local _ .vmem, ⟨5, _⟩ => ⟨S1024, .f32⟩
  | .local _ .vmem, ⟨6, _⟩ => ⟨S800x1024, .bf16⟩
  | .local _ .vmem, ⟨7, _⟩ => ⟨S800x1024, .bf16⟩
  | .local _ .vmem, ⟨8, _⟩ => ⟨S800x1024, .bf16⟩
  | .local _ .vmem, ⟨9, _⟩ => ⟨S800x1024, .bf16⟩
  | .local _ .vmem, ⟨10, _⟩ => ⟨S1024x1024, .bf16⟩
  | .local _ .vmem, ⟨11, _⟩ => ⟨S1024x1024, .bf16⟩
  | .local _ .vmem, ⟨12, _⟩ => ⟨S640x1024, .bf16⟩
  | .local _ .vmem, ⟨13, _⟩ => ⟨S640x1024, .bf16⟩
  | .local _ .vmem, ⟨14, _⟩ => ⟨S640x1024, .bf16⟩
  | .local _ .vmem, ⟨15, _⟩ => ⟨S640x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S800x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S800x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 50], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S640x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S640x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S1024x1024_S1024x1024_1_0 : S1024x1024.Transposes [1, 0] S1024x1024
  bitsLt_bf16_f32 : FTy.bits .bf16 < FTy.bits .f32
  inb_S800x1024_S800x1024_0_0 : ∀ a, (![0, 0] : Fin 2 → Nat) a + S800x1024.size a ≤ S800x1024.size a
  h_S800x1024 : 0 < S800x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S800x1024 : S1x1024.Broadcasts S800x1024
  packedbf16_S800x1024_S800x1024_0_0 : (Rect.unit (s := S800x1024) ![0, 0] S800x1024.size inb_S800x1024_S800x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  reduces_S1024x640_S1024 : S1024x640.Reduces [1] S1024
  shapeCasts_S1024_S1024x1 : S1024.ShapeCasts S1024x1
  broadcasts_S1024x1_S1024x1024 : S1024x1.Broadcasts S1024x1024
  gather_S32000x1024_S4096x1_S4096x1024_1_0_n_n_0_1_11024_wf : GatherDims.WF S32000x1024 S4096x1 S4096x1024 [1] [0] [] [0] [] 1 ![1, 1024]
  dot_S800x1024_S1024x1024_S800x1024_1_0_0_1_n_n_wf : DotDims.WF S800x1024 S1024x1024 S800x1024 [1] [0] [0] [1] [] []
  dot_S1024x1024_S640x1024_S1024x640_1_1_0_0_n_n_wf : DotDims.WF S1024x1024 S640x1024 S1024x640 [1] [1] [0] [0] [] []
  dot_S1024x640_S640x1024_S1024x1024_1_0_0_1_n_n_wf : DotDims.WF S1024x640 S640x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x1024.size a ≤ S32000x1024.size a
  hwx0_0 : ∀ i : grid0.Coords, EltTy.bits .f32 = 32 ∨ (Rect.block (s := S32000x1024) S800x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x1024.size a ≤ S32000x1024.size a
  hwx0_1 : ∀ i : grid0.Coords, EltTy.bits .f32 = 32 ∨ (Rect.block (s := S32000x1024) S800x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S800x1024.size a ≤ S32000x1024.size a
  hwx0_4 : ∀ i : grid0.Coords, EltTy.bits .bf16 = 32 ∨ (Rect.block (s := S32000x1024) S800x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S800x1024.size a ≤ S32000x1024.size a
  hwx0_5 : ∀ i : grid0.Coords, EltTy.bits .bf16 = 32 ∨ (Rect.block (s := S32000x1024) S800x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x1024.size a ≤ S32000x1024.size a
  hwx1_1 : ∀ i : grid1.Coords, EltTy.bits .bf16 = 32 ∨ (Rect.block (s := S32000x1024) S640x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S640x1024.size a ≤ S32000x1024.size a
  hwx1_2 : ∀ i : grid1.Coords, EltTy.bits .bf16 = 32 ∨ (Rect.block (s := S32000x1024) S640x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x1024.size a
  hwx1_4 : ∀ i : grid1.Coords, EltTy.bits .f32 = 32 ∨ (Rect.block (s := S4096x1024) S1024x1024.size (cc1_transform_4 i) (hinb1_4 i)).WholeWords (EltTy.packing .f32)

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S800x1024_S1024x1024_S800x1024_1_0_0_1_n_n : DotDims S800x1024 S1024x1024 S800x1024 where
  lhsContracting := [1]
  rhsContracting := [0]
  lhsNonContracting := [0]
  rhsNonContracting := [1]
  lhsBatch := []
  rhsBatch := []
  wf := dot_S800x1024_S1024x1024_S800x1024_1_0_0_1_n_n_wf
def dot_S1024x1024_S640x1024_S1024x640_1_1_0_0_n_n : DotDims S1024x1024 S640x1024 S1024x640 where
  lhsContracting := [1]
  rhsContracting := [1]
  lhsNonContracting := [0]
  rhsNonContracting := [0]
  lhsBatch := []
  rhsBatch := []
  wf := dot_S1024x1024_S640x1024_S1024x640_1_1_0_0_n_n_wf
def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf

abbrev win0_0 : Pipeline.Window sig grid0 :=
  Pipeline.Window.ofSpec (Memref.whole main_arg2) S800x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S800x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S800x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S800x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_0) S640x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_1) S640x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096 : Shape := ⟨1, ![4096]⟩
abbrev S32000x1024 : Shape := ⟨2, ![32000, 1024]⟩
abbrev S1024x1024 : Shape := ⟨2, ![1024, 1024]⟩
abbrev S1024 : Shape := ⟨1, ![1024]⟩
abbrev S_ : Shape := ⟨0, ![]⟩
abbrev S4096x1 : Shape := ⟨2, ![4096, 1]⟩
abbrev S4096x1024 : Shape := ⟨2, ![4096, 1024]⟩
abbrev S1x1024 : Shape := ⟨2, ![1, 1024]⟩
abbrev S1024x32000 : Shape := ⟨2, ![1024, 32000]⟩
abbrev S4096x32000 : Shape := ⟨2, ![4096, 32000]⟩

abbrev nBuf : Space → Nat
  | .hbm => 48
  | .vmem => 0
  | .smem => 0
  | _ => 0

abbrev bufTy : (tb : Table) → Fin (tcTables nBuf tb) → BufTy
  | .hbm, ⟨0, _⟩ => ⟨S4096, .i32⟩
  | .hbm, ⟨1, _⟩ => ⟨S32000x1024, .f32⟩
  | .hbm, ⟨2, _⟩ => ⟨S32000x1024, .f32⟩
  | .hbm, ⟨3, _⟩ => ⟨S32000x1024, .f32⟩
  | .hbm, ⟨4, _⟩ => ⟨S1024x1024, .f32⟩
  | .hbm, ⟨5, _⟩ => ⟨S1024, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x1024, .f32⟩
  | .hbm, ⟨15, _⟩ => ⟨S1024x1024, .f32⟩
  | .hbm, ⟨16, _⟩ => ⟨S32000x1024, .f32⟩
  | .hbm, ⟨17, _⟩ => ⟨S1x1024, .f32⟩
  | .hbm, ⟨18, _⟩ => ⟨S32000x1024, .f32⟩
  | .hbm, ⟨19, _⟩ => ⟨S32000x1024, .f32⟩
  | .hbm, ⟨20, _⟩ => ⟨S1024x32000, .f32⟩
  | .hbm, ⟨21, _⟩ => ⟨S4096x32000, .f32⟩
  | .hbm, ⟨22, _⟩ => ⟨S4096x32000, .f32⟩
  | .hbm, ⟨23, _⟩ => ⟨S_, .f32⟩
  | .hbm, ⟨24, _⟩ => ⟨S4096x32000, .f32⟩
  | .hbm, ⟨25, _⟩ => ⟨S4096x32000, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x32000, .f32⟩
  | .hbm, ⟨30, _⟩ => ⟨S4096x32000, .f32⟩
  | .hbm, ⟨31, _⟩ => ⟨S4096x1024, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S32000x1024_0_1 : S1x1024.BroadcastsInDim S32000x1024 (![0, 1] : Fin 2 → Fin S32000x1024.rank)
  transposes_S32000x1024_S1024x32000_1_0 : S32000x1024.Transposes [1, 0] S1024x32000
  bcast_S_S4096x32000 : S_.BroadcastsInDim S4096x32000 (![] : Fin 0 → Fin S4096x32000.rank)
  reducesTo_S4096x32000_S4096_d1 : S4096x32000.ReducesTo [1] S4096
  h_S_ : 0 < S_.numel
  bcast_S4096x1_S4096x32000_0_1 : S4096x1.BroadcastsInDim S4096x32000 (![0, 1] : Fin 2 → Fin S4096x32000.rank)
  bcast_S_S4096x1024 : S_.BroadcastsInDim S4096x1024 (![] : Fin 0 → Fin S4096x1024.rank)
  gather_S32000x1024_S4096x1_S4096x1024_1_0_n_n_0_1_11024_wf : GatherDims.WF S32000x1024 S4096x1 S4096x1024 [1] [0] [] [0] [] 1 ![1, 1024]
  dot_S32000x1024_S1024x1024_S32000x1024_1_0_0_1_n_n_wf : DotDims.WF S32000x1024 S1024x1024 S32000x1024 [1] [0] [0] [1] [] []
  dot_S4096x1024_S1024x32000_S4096x32000_1_0_0_1_n_n_wf : DotDims.WF S4096x1024 S1024x32000 S4096x32000 [1] [0] [0] [1] [] []
  dot_S4096x32000_S32000x1024_S4096x1024_1_0_0_1_n_n_wf : DotDims.WF S4096x32000 S32000x1024 S4096x1024 [1] [0] [0] [1] [] []

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S32000x1024_S1024x1024_S32000x1024_1_0_0_1_n_n : DotDims S32000x1024 S1024x1024 S32000x1024 where
  lhsContracting := [1]
  rhsContracting := [0]
  lhsNonContracting := [0]
  rhsNonContracting := [1]
  lhsBatch := []
  rhsBatch := []
  wf := dot_S32000x1024_S1024x1024_S32000x1024_1_0_0_1_n_n_wf
def dot_S4096x1024_S1024x32000_S4096x32000_1_0_0_1_n_n : DotDims S4096x1024 S1024x32000 S4096x32000 where
  lhsContracting := [1]
  rhsContracting := [0]
  lhsNonContracting := [0]
  rhsNonContracting := [1]
  lhsBatch := []
  rhsBatch := []
  wf := dot_S4096x1024_S1024x32000_S4096x32000_1_0_0_1_n_n_wf
def dot_S4096x32000_S32000x1024_S4096x1024_1_0_0_1_n_n : DotDims S4096x32000 S32000x1024 S4096x1024 where
  lhsContracting := [1]
  rhsContracting := [0]
  lhsNonContracting := [0]
  rhsNonContracting := [1]
  lhsBatch := []
  rhsBatch := []
  wf := dot_S4096x32000_S32000x1024_S4096x1024_1_0_0_1_n_n_wf

class Facts : Prop extends Facts₀ where

variable [Facts]
-- ==== Proof.K.KeysData.lean ====
/-
  Region 0 of the kernel program (the key projection): the data its run is stated over.

  The region walks the 32000 rows of the key table and of the value table in 40 blocks of 800 rows.  At block
  `t` the body reads the block of keys, the whole (transposed, narrowed) weight matrix and the bias, and leaves
  in its first output block the narrowed  keys · Wᵀ + bias  of those 800 rows, and in its second output block the
  narrowed block of the value table.  Nothing is carried from one block to the next: what each output block holds
  after the body is ONE function of the input blocks at that point, stated here as the body's own payload terms.
  The arrays are read as the region finds them, a parameter `V` (the buffers' contents when the region is entered).
-/
import proofs.«110937_j71992241815552_2_alg».proof.Proof.Gen.Kernel.Launch
import proofs.«110937_j71992241815552_2_alg».proof.Proof.Gen.Kernel.Skeleton
import proofs.«110937_j71992241815552_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Keys

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the region's run is stated over: each input's staging buffer holds its block after the body as before it;
    the first output's holds the narrowed  keys · Wᵀ + bias  of the point's blocks, the second's the narrowed value
    block; the body keeps nothing between points (the invariant is the untouched scoped rest and the generator
    register); nothing is owed; the arrays are held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => k0_pay1 (blk V c 0 t) (blk V c 2 t) (blk V c 3 t)
    | ⟨5, _⟩ => k0_pay2 (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = k0_pay1 (blk V c 0 t) (blk V c 2 t) (blk V c 3 t) := by dsimp only [dat]
theorem after_5 (c : Dev nD) (t : Fin cfg0.N) : (dat V c).after 5 t = k0_pay2 (blk V c 1 t) := by dsimp only [dat]

end Cert.Kernel.Keys

end
-- ==== Proof.K.KeysBody.lean ====
/-
  Region 0's body obligation: at every grid point the body, called on the windows' current staging buffers,
  reads the key block, the weight matrix, the bias and the value block — each staging buffer holds its window's
  block, fetched at this point or (the weight matrix and the bias) kept from the first — and leaves the two output
  buffers at the narrowed  keys · Wᵀ + bias  and the narrowed value block.  The body keeps nothing between points.
-/
import proofs.«110937_j71992241815552_2_alg».proof.Proof.K.KeysData
import Idealize.ShloMosaic.Lib.Pipeline.Value

set_option maxRecDepth 16384

noncomputable section

namespace Cert.Kernel.Keys

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks

An input's body leaves its block in place, so its current staging buffer holds the block of the point whether the
block was fetched at this point or at an earlier one (the block index has not moved since). -/

theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)

theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-! ## The body's triple

The body loads each input through the whole rectangle of its buffer (so reads the buffer's contents), and stores into
each output, through the whole rectangle of its buffer, one payload: the narrowed  keys · Wᵀ + bias  into the first,
the narrowed value block into the second.  The loads of the outputs that precede the stores read values nothing uses. -/

/-- Offsets spelt as a literal vector of zeros are the zero offsets (rank 2, rank 1). -/
theorem zero2 : (![0, 0] : Fin 2 → Nat) = fun _ => 0 := by funext a; fin_cases a <;> rfl
theorem zero1 : (![0] : Fin 1 → Nat) = fun _ => 0 := by funext a; fin_cases a; rfl

set_option maxHeartbeats 1000000 in
/-- The body on any whole memrefs, the inputs' at contents `xk`, `xv`, `xw`, `xb` and the outputs' at anything,
    runs to the continuation holding the inputs' as they were, the first output's at the narrowed
    `xk · xw + xb` and the second's at the narrowed `xv` (the two payloads of its stores). -/
theorem sound_kernel (c : Dev nD) (E : Set ℕ) (i : grid0.Coords)
    (keys : Memref sig .tc .vmem S800x1024 .f32) (hkeys : keys.IsWhole)
    (vals : Memref sig .tc .vmem S800x1024 .f32) (hvals : vals.IsWhole)
    (wts : Memref sig .tc .vmem S1024x1024 .bf16) (hwts : wts.IsWhole)
    (bias : Memref sig .tc .vmem S1024 .f32) (hbias : bias.IsWhole)
    (okeys : Memref sig .tc .vmem S800x1024 .bf16) (hokeys : okeys.IsWhole)
    (ovals : Memref sig .tc .vmem S800x1024 .bf16) (hovals : ovals.IsWhole)
    (xk : Vec F S800x1024 .f32) (xv : Vec F S800x1024 .f32) (xw : Vec F S1024x1024 .bf16) (xb : Vec F S1024 .f32)
    (K : PUnit → sProp 𝕄) :
    iprop(owns (c : Thread nD τ) keys fullShare xk ∗ owns (c : Thread nD τ) vals fullShare xv
        ∗ owns (c : Thread nD τ) wts fullShare xw ∗ owns (c : Thread nD τ) bias fullShare xb
        ∗ (∃ d, owns (c : Thread nD τ) okeys fullShare d) ∗ (∃ d, owns (c : Thread nD τ) ovals fullShare d)
        ∗ (iprop(owns (c : Thread nD τ) keys fullShare xk ∗ owns (c : Thread nD τ) vals fullShare xv
            ∗ owns (c : Thread nD τ) wts fullShare xw ∗ owns (c : Thread nD τ) bias fullShare xb
            ∗ owns (c : Thread nD τ) okeys fullShare (k0_pay1 xk xw xb)
            ∗ owns (c : Thread nD τ) ovals fullShare (k0_pay2 xv)) -∗ K ⟨⟩))
      ⊢ wp frame (wpE (defs₀ (F := F)) Variants.none c none) E
          (cc0__tkeys_kernel i keys hkeys vals hvals wts hwts bias hbias okeys hokeys ovals hovals) K := by
  simp only [cc0__tkeys_kernel_eq_skeleton]; unfold cc0__tkeys_kernel_skel
  unfold owns
  iintro ⟨⟨%fk, %hfk, Hk0⟩, ⟨%fv, %hfv, Hv0⟩, ⟨%fw, %hfw, Hw0⟩, ⟨%fb, %hfb, Hb0⟩, ⟨%dk, %gk, -, Hok⟩, ⟨%dv, %gv, -, Hov⟩, HK⟩
  subst hfk hfv hfw hfb
  sl_exec
  sl_step
  iapply HK
  isplitl [Hk0]
  · iexists fk; isplitr; · ipureintro; rfl
    iexact Hk0
  isplitl [Hv0]
  · iexists fv; isplitr; · ipureintro; rfl
    iexact Hv0
  isplitl [Hw0]
  · iexists fw; isplitr; · ipureintro; rfl
    iexact Hw0
  isplitl [Hb0]
  · iexists fb; isplitr; · ipureintro; rfl
    iexact Hb0
  isplitl [Hok]
  · iexists _; isplitr
    swap; · iexact Hok
    ipureintro
    refine (View.read_writes_eq_canon _ _ _
      (fun y => ⟨_, List.mem_singleton_self _, View.mem_set_unit_zero zero2 inb_S800x1024_S800x1024_0_0 y⟩)).trans ?_
    rw [View.canon_unit_zero zero2, View.readAt_eq_ld, View.readAt_eq_ld, View.readAt_eq_ld,
      View.ld_unit_zero zero2, View.ld_unit_zero zero2, View.ld_unit_zero zero1]
  iexists _; isplitr
  swap; · iexact Hov
  ipureintro
  refine (View.read_writes_eq_canon _ _ _
    (fun y => ⟨_, List.mem_singleton_self _, View.mem_set_unit_zero zero2 inb_S800x1024_S800x1024_0_0 y⟩)).trans ?_
  rw [View.canon_unit_zero zero2, View.readAt_eq_ld, View.ld_unit_zero zero2]

/-! ## The body obligation, at a generic point -/

/-- What the body is called with at point `t`: the invariant, the core's tally, and each window's current staging
    buffer — an input's at what it held before the body, an output's at what it held before the body. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- What it returns: the same, each buffer at what the proof data says the body leaves in it. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the four inputs' buffers hold their blocks, so the body's triple applies with the blocks
    as the read contents; the invariant and the core's tally pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation (c : Dev nD) : BodyObligation (dat (F := F) V c) (defs₀ (F := F)) Variants.none () Set.univ := fun t => by
  rw [bigSep_W0, bigSep_W0]
  exact sound_body V c t

end Cert.Kernel.Keys

end
-- ==== Proof.K.AttnData.lean ====
/-
  Region 1 of the kernel program (the weighted value sum): the data its run is stated over.

  The grid is 4 blocks of 1024 query rows by 50 blocks of 640 table rows, the table axis running fastest: point
  `t` is row block `t / 50` and table block `t % 50`.  Along a row block the body carries two things from one
  point to the next: the output block (the running sum over the table blocks seen so far of  exp(q · kᵀ) · v ) and
  a scratch column (the running row sums of  exp(q · kᵀ) ).  At the first table block both start from zero; at the
  last the output block is replaced by  ½ · lookup + (½ · sum) · (1 / rowsum) .  One point's update is `step`; what
  the two carried buffers hold after point `k` is `accAt`, by recursion on `k`.  The arrays are read as the region
  finds them, a parameter `V`.
-/
import proofs.«110937_j71992241815552_2_alg».proof.Proof.Gen.Kernel.Launch
import proofs.«110937_j71992241815552_2_alg».proof.Proof.Gen.Kernel.Skeleton
import proofs.«110937_j71992241815552_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One point's update of the carried pair (output block, row sums) from the point's query block `q`, key block
    `tk`, value block `vv` and lookup block `vl`: the row sums gain this block's, the output block gains this
    block's weighted values, and at the LAST table block the output block becomes the blend with the lookup. -/
def step (last : Bool) (q : Vec F S1024x1024 .bf16) (tk vv : Vec F S640x1024 .bf16) (vl : Vec F S1024x1024 .f32)
    (p : Vec F S1024x1024 .f32 × Vec F S1024x1 .f32) : Vec F S1024x1024 .f32 × Vec F S1024x1 .f32 :=
  (if last then k1_pay6 (k1_pay4 q tk p.2) vl (k1_pay5 q tk vv p.1) else k1_pay5 q tk vv p.1, k1_pay4 q tk p.2)

/-- What both carried buffers are reset to at the first table block of a row block: zeros. -/
def start : Vec F S1024x1024 .f32 × Vec F S1024x1 .f32 := (k1_pay1, k1_pay2)

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- `step` at grid point `t`, on the point's blocks; the last table block is the one with `t % 50 = 49`. -/
def stepAt (c : Dev nD) (t : Fin cfg1.N) (p : Vec F S1024x1024 .f32 × Vec F S1024x1 .f32) :
    Vec F S1024x1024 .f32 × Vec F S1024x1 .f32 :=
  step (decide (t.val % 50 = 49)) (blk V c 0 t) (blk V c 1 t) (blk V c 2 t) (blk V c 3 t) p

/-- The carried pair (output block, row sums) after the body at position `k`: from zeros at the first table block
    of a row block, from what position `k - 1` left otherwise. -/
def accAt (c : Dev nD) : (k : ℕ) → k < cfg1.N → Vec F S1024x1024 .f32 × Vec F S1024x1 .f32
  | 0, h => stepAt V c ⟨0, h⟩ start
  | k + 1, h =>
    if (k + 1) % 50 = 0 then stepAt V c ⟨k + 1, h⟩ start
    else stepAt V c ⟨k + 1, h⟩ (accAt c k (Nat.lt_of_succ_lt h))

theorem accAt_first (c : Dev nD) (t : Fin cfg1.N) (h0 : t.val % 50 = 0) :
    accAt V c t.val t.isLt = stepAt V c t start := by
  obtain ⟨n, hn⟩ := t
  cases n with
  | zero => rfl
  | succ n => exact (if_pos h0).trans rfl

theorem accAt_next (c : Dev nD) (t : Fin cfg1.N) (h0 : ¬ t.val % 50 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The body's two branch conditions as the printed scalar chains over the grid coordinates: the reset branch is
    taken at the first table block of a row block, the blend at the last. -/
abbrev condFirst (i : grid1.Coords) : Prop :=
  (Scalar.cmpi .ne (Scalar.extui (Scalar.cmpi .eq (BitVec.ofNat 32 (i 1).val) 0#32)) 0#32) = 1#1
abbrev condLast (i : grid1.Coords) : Prop :=
  (Scalar.cmpi .ne (Scalar.extui (Scalar.cmpi .eq (BitVec.ofNat 32 (i 1).val) 49#32)) 0#32) = 1#1
theorem hcondFirst : ∀ t : Fin cfg1.N, condFirst (grid1.coords t) ↔ t.val % 50 = 0 :=
  (by decide +kernel : ∀ t : Fin grid1.N, condFirst (grid1.coords t) ↔ t.val % 50 = 0)
theorem hcondLast : ∀ t : Fin cfg1.N, condLast (grid1.coords t) ↔ t.val % 50 = 49 :=
  (by decide +kernel : ∀ t : Fin grid1.N, condLast (grid1.coords t) ↔ t.val % 50 = 49)

/-- The kernel's scratch column, a whole scoped buffer passed beside the windows. -/
abbrev scM : Memref sig .tc .vmem S1024x1 .f32 := Memref.whole cc1_scratch0

/-- Region 0's staging buffers, which this region never touches, each whole at some contents, beside `X` (what is
    said of the scratch column). -/
def withOthers (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ X)

theorem withOthers_mono (c : Dev nD) {X Y : sProp 𝕄} (h : X ⊢ Y) : withOthers (F := F) c X ⊢ withOthers c Y := by
  unfold withOthers
  exact sep_mono .rfl (sep_mono .rfl (sep_mono .rfl (sep_mono .rfl (sep_mono .rfl (sep_mono .rfl (sep_mono .rfl (sep_mono .rfl (sep_mono .rfl (sep_mono .rfl (h))))))))))

/-- The region's invariant before position `n`: before the first point the scoped rest at anything and the
    generator register; afterwards the scratch column at the row sums position `n - 1` left, the other scoped
    buffers at anything, the generator register. -/
def PhiS (c : Dev nD) : (n : ℕ) → n ≤ cfg1.N → sProp 𝕄
  | 0, _ => Pipeline.ΦA spec1 c
  | n + 1, hn => iprop(withOthers c (owns (c : Thread nD τ) scM fullShare (accAt V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withOthers c (owns (c : Thread nD τ) scM fullShare (accAt V c n hn).2) ∗ (∃ r, prngReg c r)) := rfl

theorem PhiS_pos (c : Dev nD) (n : ℕ) (h : n ≤ cfg1.N) (hz : n ≠ 0) :
    PhiS V c n h = iprop(withOthers c (owns (c : Thread nD τ) scM fullShare (accAt V c (n - 1) (by omega)).2) ∗ (∃ r, prngReg c r)) := by
  cases n with
  | zero => exact absurd rfl hz
  | succ n => rfl

/-- The scoped rest is the other buffers beside the scratch column owned, as a memref, at some contents. -/
theorem PhiA_eq (c : Dev nD) :
    (Pipeline.ΦA spec1 c : sProp 𝕄) = iprop(withOthers c iprop(∃ d, owns (c : Thread nD τ) scM fullShare d) ∗ (∃ r, prngReg c r)) := by
  unfold Pipeline.ΦA withOthers; rw [scopedRest1_eq]; simp only [scM, owns_whole]; rfl

/-- What the region's run is stated over: each input's staging buffer holds its block after the body as before it;
    the output's holds the carried output block; the invariant carries the row sums; nothing is owed; the arrays
    are held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (accAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = (accAt V c t.val t.isLt).1 := by dsimp only [dat]

theorem Phi_castSucc (c : Dev nD) (t : Fin cfg1.N) :
    (dat V c).Φ t.castSucc = PhiS V c t.val (Nat.le_of_lt t.isLt) := by
  dsimp only [dat]; simp only [Fin.coe_castSucc]

end Cert.Kernel.Attn

end
-- ==== Proof.K.AttnRunLast.lean ====
/-
  Region 1's body at the last table block of a row block.

  The reset branch is not taken and the blend branch is.  The body reads the query, key and value blocks and the
  scratch column, stores the advanced row sums into the scratch column and the advanced weighted-value sum into the
  output buffer, then reads the scratch column, the lookup block and the output buffer back and stores the blend
  into the output buffer.  Every access is through the whole buffer, so each read returns what the buffer holds
  (the last whole store's value, when there was one) and each buffer ends at its last whole store's value: the
  carried pair ends at one step, with the blend, from what it held.
-/
import proofs.«110937_j71992241815552_2_alg».proof.Proof.K.AttnData
import Idealize.ShloMosaic.Lib.Pipeline.Value

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer access, as the body spells them. -/
theorem hz2 : (![0, 0] : Fin 2 → Nat) = fun _ => 0 := funext fun a => by fin_cases a <;> rfl

set_option maxHeartbeats 4000000 in
/-- The last table block: the carried pair advances by one step and the output block is blended with the lookup. -/
theorem run_last (c : Dev nD) (E : Set ℕ) (i : grid1.Coords) (hf : ¬ condFirst i) (hl : condLast i)
    (arg2 : Memref sig .tc .vmem S1024x1024 .bf16) (harg2 : arg2.IsWhole) (arg3 : Memref sig .tc .vmem S640x1024 .bf16) (harg3 : arg3.IsWhole)
    (arg4 : Memref sig .tc .vmem S640x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1 .f32) (harg7 : arg7.IsWhole)
    (q : Vec F S1024x1024 .bf16) (tk vv : Vec F S640x1024 .bf16) (vl : Vec F S1024x1024 .f32) (o : Vec F S1024x1024 .f32) (s : Vec F S1024x1 .f32) (K : PUnit → sProp 𝕄) :
    iprop(owns (c : Thread nD τ) arg2 fullShare q ∗ owns (c : Thread nD τ) arg3 fullShare tk ∗ owns (c : Thread nD τ) arg4 fullShare vv
        ∗ owns (c : Thread nD τ) arg5 fullShare vl
        ∗ owns (c : Thread nD τ) arg6 fullShare o ∗ owns (c : Thread nD τ) arg7 fullShare s
        ∗ (iprop(owns (c : Thread nD τ) arg2 fullShare q ∗ owns (c : Thread nD τ) arg3 fullShare tk ∗ owns (c : Thread nD τ) arg4 fullShare vv
        ∗ owns (c : Thread nD τ) arg5 fullShare vl
            ∗ owns (c : Thread nD τ) arg6 fullShare (step true q tk vv vl (o, s)).1
            ∗ owns (c : Thread nD τ) arg7 fullShare (step true q tk vv vl (o, s)).2) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [View.read_writes_eq_canon _ _ _ (fun y => ⟨_, List.mem_cons_self, View.mem_set_unit_zero hz2 inb_S1024x1024_S1024x1024_0_0 y⟩)]
    rw [View.canon_cons_unit_zero (S := S1024x1024) hz2]
    sl_unfold_words
    rw [View.readCov_unit_zero (S := S1024x1) _ hz2, View.readCov_unit_zero (S := S1024x1024) _ hz2]
    simp only [View.readAt_eq_ld, hf2, hf3, hf4, hf5, hf6, hf7, View.ld_unit_zero (S := S1024x1024) hz2,
      View.ld_unit_zero (S := S640x1024) hz2, View.ld_unit_zero (S := S1024x1) hz2]
    rfl
  · iexists _; isplitr
    swap; · iexact H7
    ipureintro
    sl_unfold_words
    rw [View.read_writes_eq_canon _ _ _ (fun y => ⟨_, List.mem_cons_self, View.mem_set_unit_zero hz2 inb_S1024x1_S1024x1_0_0 y⟩)]
    rw [View.canon_unit_zero (S := S1024x1) hz2]
    simp only [View.readAt_eq_ld, hf2, hf3, hf7, View.ld_unit_zero (S := S1024x1024) hz2,
      View.ld_unit_zero (S := S640x1024) hz2, View.ld_unit_zero (S := S1024x1) hz2]
    rfl

end Cert.Kernel.Attn

end
-- ==== Proof.K.AttnRuns.lean ====
/-
  Region 1's body, run once per control case, on any whole staging memrefs and any contents.

  The body branches twice on the table-block coordinate: it resets the two carried buffers at the first table
  block, and blends with the lookup at the last.  A row block has 50 table blocks, so three cases occur: first
  (reset, then accumulate), middle (accumulate), last (accumulate, then blend).  In each the four input buffers
  are read and left as they were, and the carried pair ends at `step` of the point's blocks: from zeros in the
  first case (whatever the two buffers held), from what they held in the other two.
-/
import proofs.«110937_j71992241815552_2_alg».proof.Proof.K.AttnData
import proofs.«110937_j71992241815552_2_alg».proof.Proof.K.AttnRunLast
import Idealize.ShloMosaic.Lib.Pipeline.Value

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 rectangle, as the constant function. -/
private theorem zeros2 : (![0, 0] : Fin 2 → Nat) = fun _ => 0 := by funext a; fin_cases a <;> rfl

/-- A load of a whole buffer, held at the raw contents that read `X`, through the whole-shape rectangle reads `X`. -/
private theorem readAt_whole_unread {κ : Kind} {sp : Space} {S : Shape} {e : EltTy} {m : Memref sig κ sp S e} (h : m.IsWhole)
    (X : S.Idx → Elt F e) {off : Fin S.rank → Nat} (h0 : off = fun _ => 0) (inb : ∀ a, off a + S.size a ≤ S.size a) :
    View.readAt (Elt F) m.view (Rect.unit off S.size inb).toLoadRect (h.unread X) = X := by
  refine (View.readAt_eq_ld m.view (h.unread X) (Rect.unit off S.size inb)).trans ?_
  rw [h.read_unread X]
  exact View.ld_unit_zero h0 inb X

/-- After a store through the whole-shape rectangle, made last, a buffer reads that store's payload, whatever it held
    and whatever was stored before. -/
private theorem read_writes_whole {κ : Kind} {sp : Space} {S : Shape} {e : EltTy} (v : View sig κ sp S e) (f : v.ty.Contents (Elt F))
    {off : Fin S.rank → Nat} (h0 : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  refine (View.read_writes_eq_canon v f _ (fun y => ⟨_, List.mem_cons_self, View.mem_set_unit_zero h0 inb y⟩)).trans ?_
  exact View.canon_cons_unit_zero h0 inb w L

set_option maxHeartbeats 4000000 in
/-- The first table block of a row block: the two carried buffers, whatever they held, end at one step from zeros. -/
theorem run_first (c : Dev nD) (E : Set ℕ) (i : grid1.Coords) (hf : condFirst i) (hl : ¬ condLast i)
    (arg2 : Memref sig .tc .vmem S1024x1024 .bf16) (harg2 : arg2.IsWhole) (arg3 : Memref sig .tc .vmem S640x1024 .bf16) (harg3 : arg3.IsWhole)
    (arg4 : Memref sig .tc .vmem S640x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1 .f32) (harg7 : arg7.IsWhole)
    (q : Vec F S1024x1024 .bf16) (tk vv : Vec F S640x1024 .bf16) (vl : Vec F S1024x1024 .f32) (K : PUnit → sProp 𝕄) :
    iprop(owns (c : Thread nD τ) arg2 fullShare q ∗ owns (c : Thread nD τ) arg3 fullShare tk ∗ owns (c : Thread nD τ) arg4 fullShare vv
        ∗ owns (c : Thread nD τ) arg5 fullShare vl
        ∗ (∃ d, owns (c : Thread nD τ) arg6 fullShare d) ∗ (∃ d, owns (c : Thread nD τ) arg7 fullShare d)
        ∗ (iprop(owns (c : Thread nD τ) arg2 fullShare q ∗ owns (c : Thread nD τ) arg3 fullShare tk ∗ owns (c : Thread nD τ) arg4 fullShare vv
        ∗ owns (c : Thread nD τ) arg5 fullShare vl
            ∗ owns (c : Thread nD τ) arg6 fullShare (step false q tk vv vl start).1
            ∗ owns (c : Thread nD τ) arg7 fullShare (step false q tk vv vl start).2) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3; obtain rfl := harg4.eq_unread hf4
  obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · ipureintro
      refine (read_writes_whole _ _ zeros2 _ _ _).trans ?_
      -- the output block's last store is the accumulation over what the reset left, which reads back as the zeros
      sl_unfold_run_names
      rw [readAt_whole_unread harg2 q zeros2, readAt_whole_unread harg3 tk zeros2, readAt_whole_unread harg4 vv zeros2,
        View.readCov_unit_zero arg6.view zeros2]
      rfl
  · iexists _; isplitr
    swap
    · iexact H7
    · ipureintro
      refine (read_writes_whole _ _ zeros2 _ _ _).trans ?_
      -- likewise the row sums: this block's sums added to the zeros the reset left
      sl_unfold_run_names
      rw [readAt_whole_unread harg2 q zeros2, readAt_whole_unread harg3 tk zeros2, View.readCov_unit_zero arg7.view zeros2]
      rfl

set_option maxHeartbeats 4000000 in
/-- A middle table block: the carried pair advances by one step. -/
theorem run_mid (c : Dev nD) (E : Set ℕ) (i : grid1.Coords) (hf : ¬ condFirst i) (hl : ¬ condLast i)
    (arg2 : Memref sig .tc .vmem S1024x1024 .bf16) (harg2 : arg2.IsWhole) (arg3 : Memref sig .tc .vmem S640x1024 .bf16) (harg3 : arg3.IsWhole)
    (arg4 : Memref sig .tc .vmem S640x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1 .f32) (harg7 : arg7.IsWhole)
    (q : Vec F S1024x1024 .bf16) (tk vv : Vec F S640x1024 .bf16) (vl : Vec F S1024x1024 .f32) (o : Vec F S1024x1024 .f32) (s : Vec F S1024x1 .f32) (K : PUnit → sProp 𝕄) :
    iprop(owns (c : Thread nD τ) arg2 fullShare q ∗ owns (c : Thread nD τ) arg3 fullShare tk ∗ owns (c : Thread nD τ) arg4 fullShare vv
        ∗ owns (c : Thread nD τ) arg5 fullShare vl
        ∗ owns (c : Thread nD τ) arg6 fullShare o ∗ owns (c : Thread nD τ) arg7 fullShare s
        ∗ (iprop(owns (c : Thread nD τ) arg2 fullShare q ∗ owns (c : Thread nD τ) arg3 fullShare tk ∗ owns (c : Thread nD τ) arg4 fullShare vv
        ∗ owns (c : Thread nD τ) arg5 fullShare vl
            ∗ owns (c : Thread nD τ) arg6 fullShare (step false q tk vv vl (o, s)).1
            ∗ owns (c : Thread nD τ) arg7 fullShare (step false q tk vv vl (o, s)).2) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · ipureintro
      refine (read_writes_whole _ _ zeros2 _ _ _).trans ?_
      -- the output block's one store is the accumulation over what the block held
      rw [readAt_whole_unread harg2 q zeros2, readAt_whole_unread harg3 tk zeros2, readAt_whole_unread harg4 vv zeros2,
        readAt_whole_unread harg6 o zeros2]
      rfl
  · iexists _; isplitr
    swap
    · iexact H7
    · ipureintro
      refine (read_writes_whole _ _ zeros2 _ _ _).trans ?_
      -- the row sums' one store is this block's sums added to what the column held
      rw [readAt_whole_unread harg2 q zeros2, readAt_whole_unread harg3 tk zeros2, readAt_whole_unread harg7 s zeros2]
      rfl

end Cert.Kernel.Attn

end
-- ==== Proof.K.AttnBody.lean ====
/-
  Region 1's body obligation: at every grid point the body, called on the windows' current staging buffers,
  takes the region's invariant and the buffers at what they hold before the point to the invariant and the
  buffers at what the proof data says they hold after it.  The inputs hold their blocks, fetched at this point or
  kept from an earlier one; the output buffer is not written back inside a row block, so from the second table
  block on it still holds what the point before left; the scratch column rides in the invariant.  The three
  control cases are decided from the point's position in its row block.
-/
import proofs.«110937_j71992241815552_2_alg».proof.Proof.K.AttnRuns

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the staging buffers hold before a point -/

/-- An input's current staging buffer holds the point's block of its array, whether the block was fetched at this
    point or at an earlier one of the same row block: unfetched, the block index has not moved, and the body
    leaves every input as it finds it. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)

theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-- Past the first table block of a row block the output's current staging buffer holds what the body left at the
    point before: that point is in the same row block and not its last, so the buffer was not written back. -/
theorem before_4 (c : Dev nD) (t : Fin cfg1.N) (h0 : ¬ t.val % 50 = 0) (d) :
    (dat V c).before 4 t d = (accAt V c (t.val - 1) (Nat.lt_of_le_of_lt (Nat.sub_le _ _) t.isLt)).1 := by
  have hN : t.val < 200 := lt_of_lt_of_eq t.isLt N_1
  rw [Dat.before_out_kept _ 4 rfl t (by omega)
    (Bool.eq_false_iff.mpr fun h => by have := (flush1_4 _).mp h; dsimp only at this; omega)
    (fun _ => rfl) (fun _ _ => rfl)]
  dsimp only [dat]

/-! ## The body obligation, at a generic point -/

/-- Each window's current staging memref at point `t`, as the pipeline passes it to the body, and its wholeness. -/
abbrev ms_0 (t : Fin cfg1.N) : Memref sig .tc .vmem S1024x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S640x1024 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S640x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x1024 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x1024 .f32 := win1_4.stage (cfg1.slots t 4)
abbrev hs_4 (t : Fin cfg1.N) : (ms_4 t).IsWhole := hstage1_4 ((cfg1.slots t 4).cast nbuf1_4)

/-- What the body is called with at point `t`: the invariant, what the core owes, and the five windows' current
    buffers at what they hold then, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns: the invariant at the next point, the same owed, the buffers at what the body leaves. -/
def bodyPost (c : Dev nD) (t : Fin cfg1.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t)
    ∗ owns (c : Thread nD τ) (ms_4 t) fullShare ((dat V c).after 4 t))

/-- Before any point the invariant has the scratch column at some contents beside the other scoped buffers. -/
theorem PhiS_any (c : Dev nD) (n : ℕ) (h : n ≤ cfg1.N) :
    PhiS V c n h ⊢ iprop(withOthers c iprop(∃ d, owns (c : Thread nD τ) scM fullShare d) ∗ (∃ r, prngReg c r)) := by
  cases n with
  | zero => rw [PhiS_zero V c 0 h rfl, PhiA_eq]
  | succ n =>
    rw [PhiS_succ]
    refine sep_mono (withOthers_mono c ?_) .rfl
    iintro H
    iexists _; iexact H

set_option maxHeartbeats 4800000 in
/-- The body at any point.  The inputs' buffers hold their blocks.  At the first table block of a row block the
    body resets the carried pair, so whatever the output buffer and the scratch column hold is accepted, and both
    end at one step from zeros.  At a later table block the output buffer holds what the point before left and the
    invariant hands over the scratch column at the row sums the point before left, so the pair advances by one
    step, with the blend at the last table block.  In each case the invariant takes the scratch column back at
    this point's row sums, and the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [after_0, after_1, after_2, after_3, after_4, Phi_castSucc V c t]
  have hN : t.val < 200 := lt_of_lt_of_eq t.isLt N_1
  by_cases h0 : t.val % 50 = 0
  · have h49 : ¬ t.val % 50 = 49 := by omega
    rw [accAt_first V c t h0]
    unfold stepAt
    rw [decide_eq_false h49]
    refine (sep_mono (PhiS_any V c _ _) .rfl).trans ?_
    unfold withOthers
    iintro ⟨⟨⟨Hb0, Hb1, Hb2, Hb3, Hb4, Hb5, Hb6, Hb7, Hb8, Hb9, HS⟩, Hg⟩, Ho, ⟨%d0, H0⟩, ⟨%d1, H1⟩, ⟨%d2, H2⟩, ⟨%d3, H3⟩, ⟨%d4, H4⟩⟩
    iapply (run_first c Set.univ (grid1.coords t) ((hcondFirst t).mpr h0) (fun h => h49 ((hcondLast t).mp h))
      _ _ _ _ _ _ _ _ _ _ _ _ (blk V c 0 t) (blk V c 1 t) (blk V c 2 t) (blk V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hb0 Hb1 Hb2 Hb3 Hb4 Hb5 Hb6 Hb7 Hb8 Hb9 HS Hg]
    · isplitl [Hb0 Hb1 Hb2 Hb3 Hb4 Hb5 Hb6 Hb7 Hb8 Hb9 HS]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        iexact HS
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [accAt_next V c t h0]
    unfold stepAt
    simp only [before_4 V c t h0]
    rw [PhiS_pos V c _ _ hz]
    by_cases h49 : t.val % 50 = 49
    · rw [decide_eq_true h49]
      unfold withOthers
      iintro ⟨⟨⟨Hb0, Hb1, Hb2, Hb3, Hb4, Hb5, Hb6, Hb7, Hb8, Hb9, HS⟩, Hg⟩, Ho, ⟨%d0, H0⟩, ⟨%d1, H1⟩, ⟨%d2, H2⟩, ⟨%d3, H3⟩, ⟨%d4, H4⟩⟩
      iapply (run_last c Set.univ (grid1.coords t) (fun h => h0 ((hcondFirst t).mp h)) ((hcondLast t).mpr h49)
        _ _ _ _ _ _ _ _ _ _ _ _ (blk V c 0 t) (blk V c 1 t) (blk V c 2 t) (blk V c 3 t)
        (accAt V c (t.val - 1) (Nat.lt_of_le_of_lt (Nat.sub_le _ _) t.isLt)).1
        (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hb0 Hb1 Hb2 Hb3 Hb4 Hb5 Hb6 Hb7 Hb8 Hb9 HS Hg]
      · isplitl [Hb0 Hb1 Hb2 Hb3 Hb4 Hb5 Hb6 Hb7 Hb8 Hb9 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      isplitl [H3]; · iexact H3
      iexact H4
    · rw [decide_eq_false h49]
      unfold withOthers
      iintro ⟨⟨⟨Hb0, Hb1, Hb2, Hb3, Hb4, Hb5, Hb6, Hb7, Hb8, Hb9, HS⟩, Hg⟩, Ho, ⟨%d0, H0⟩, ⟨%d1, H1⟩, ⟨%d2, H2⟩, ⟨%d3, H3⟩, ⟨%d4, H4⟩⟩
      iapply (run_mid c Set.univ (grid1.coords t) (fun h => h0 ((hcondFirst t).mp h)) (fun h => h49 ((hcondLast t).mp h))
        _ _ _ _ _ _ _ _ _ _ _ _ (blk V c 0 t) (blk V c 1 t) (blk V c 2 t) (blk V c 3 t)
        (accAt V c (t.val - 1) (Nat.lt_of_le_of_lt (Nat.sub_le _ _) t.isLt)).1
        (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hb0 Hb1 Hb2 Hb3 Hb4 Hb5 Hb6 Hb7 Hb8 Hb9 HS Hg]
      · isplitl [Hb0 Hb1 Hb2 Hb3 Hb4 Hb5 Hb6 Hb7 Hb8 Hb9 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      isplitl [H3]; · iexact H3
      iexact H4

/-- The body obligation of region 1, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]

/-- After the last point the invariant gives the scoped rest back, the row sums forgotten. -/
theorem hout (c : Dev nD) : (dat V c).Φ (Fin.last cfg1.N) ⊢ (Pipeline.ΦA spec1 c : sProp 𝕄) := by
  have hN : (Fin.last cfg1.N).val ≠ 0 := by rw [Fin.val_last]; have : cfg1.N = 200 := N_1; omega
  rw [show (dat V c).Φ (Fin.last cfg1.N) = PhiS V c (Fin.last cfg1.N).val (Nat.le_of_lt_succ (Fin.last cfg1.N).isLt) from rfl,
    PhiS_pos V c _ _ hN, PhiA_eq]
  refine sep_mono (withOthers_mono c ?_) .rfl
  iintro H
  iexists _; iexact H

end Cert.Kernel.Attn

end
-- ==== Proof.K.Whole.lean ====
/-
  The run of the whole program.

  The program is one stretch of 21 host operations, then the key-projection region, then the weighted-sum
  region, and nothing after.  Between two of these a core holds every unscoped buffer whole at a known valuation:
  the launch memory, then what the host stretch computes from it, then — after each region — the region's arrays
  at what its write-backs leave and every other buffer as the region found it.  Each region is entered from the
  valuation before it and left at the one after it; the second region's invariant is its own (it carries the row
  sums between points), entered from and left to the scoped rest and the generator register.  The run ends with
  every unscoped buffer read off the last valuation; the six argument arrays are read back through the
  valuations to the launch memory, and the last region's output array to what its write-backs leave.
-/
import proofs.«110937_j71992241815552_2_alg».proof.Proof.K.KeysBody
import proofs.«110937_j71992241815552_2_alg».proof.Proof.K.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => m (c, b)
/-- After the host stretch (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves (the inputs as entered, each output's
    write-backs folded), every other buffer as entered. -/
def W2 (c : Dev nD) : Valuation τ sig (Elt F) := Pipeline.withArrays spec0 c (W1 m c) fun w => (Keys.dat (V1 m) c).arrAt w cfg0.N
theorem W2_arr (c : Dev nD) (w : Fin cfg0.W) :
    W2 m c (Proc.devRef .tc (Pipeline.arrRef spec0 w)) = (Keys.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m c b
theorem hF0 (c : Dev nD) (w : Fin cfg0.W) : (Keys.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its arrays at what the pipeline leaves, every other buffer as entered. -/
def W3 (c : Dev nD) : Valuation τ sig (Elt F) := Pipeline.withArrays spec1 c (W2 m c) fun w => (Attn.dat (V2 m) c).arrAt w cfg1.N
theorem W3_arr (c : Dev nD) (w : Fin cfg1.W) :
    W3 m c (Proc.devRef .tc (Pipeline.arrRef spec1 w)) = (Attn.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (the last contents). -/
abbrev V3 : (c : Dev nD) → (b : Ref sig .tc) → Buf (Elt F) ((c : Thread nD τ).loc b) := fun c b => W3 m c b
theorem hF1 (c : Dev nD) (w : Fin cfg1.W) : (Attn.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: no host operation writes one, and a region reads it through an input
    window (whose array ends as entered) or bypasses it -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 0).trans (((Keys.dat (V1 m) c).arrAt_in 0 rfl _).trans (Keys.A_eq (V1 m) c 0))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 1).trans (((Keys.dat (V1 m) c).arrAt_in 1 rfl _).trans (Keys.A_eq (V1 m) c 1))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 3).trans (((Keys.dat (V1 m) c).arrAt_in 3 rfl _).trans (Keys.A_eq (V1 m) c 3))
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ### What the regions hand on -/

/-- The output array ends at what the second region's write-backs leave. -/
theorem W3_out (c : Dev nD) : W3 m c (Proc.devRef .tc main_v18) = (Attn.dat (V2 m) c).arrAt 4 cfg1.N := W3_arr m c 4
/-- The second region finds the projected keys and the narrowed values as the first region's write-backs leave them, -/
theorem V2_keys (c : Dev nD) : V2 m c main_v17_0 = (Keys.dat (V1 m) c).arrAt 4 cfg0.N := W2_arr m c 4
theorem V2_vals (c : Dev nD) : V2 m c main_v17_1 = (Keys.dat (V1 m) c).arrAt 5 cfg0.N := W2_arr m c 5
/-- and the queries and the lookup rows as the host stretch leaves them. -/
theorem V2_query (c : Dev nD) : V2 m c main_v16 = V1 m c main_v16 := W2_of_ne m c main_v16 (by decide)
theorem V2_lookup (c : Dev nD) : V2 m c main_v13 = V1 m c main_v13 := W2_of_ne m c main_v13 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Keys.dat (V1 m) c
  | ⟨1, _⟩ => fun c => Attn.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register
    at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The key projection over the thread state: entered from every unscoped buffer at `W1`, left at `W2`.  Its arrays
    are split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Keys.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The weighted sum over the thread state: entered from every unscoped buffer at `W2`, left at `W3`.  Its
    invariant is its own: the launch's scoped rest and generator register make it before the first point, and
    after the last it gives them back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from Attn.hin (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from Attn.hout (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order: the host stretch from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- The program IS the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and in every final state each unscoped buffer of each core holds what the last
    valuation `W3` says. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Whole

end
-- ==== Proof.KI.KeysData.lean ====
/-
  Region 0 of the kernel program (the key projection): the data its run is stated over.

  The region walks the 32000 rows of the key table and of the value table in 40 blocks of 800 rows.  At block
  `t` the body reads the block of keys, the whole (transposed, narrowed) weight matrix and the bias, and leaves
  in its first output block the narrowed  keys · Wᵀ + bias  of those 800 rows, and in its second output block the
  narrowed block of the value table.  Nothing is carried from one block to the next: what each output block holds
  after the body is ONE function of the input blocks at that point, stated here as the body's own payload terms.
  The arrays are read as the region finds them, a parameter `V` (the buffers' contents when the region is entered).
-/
import proofs.«110937_j71992241815552_2_alg».proof.Proof.Gen.KernelIdeal.Launch
import proofs.«110937_j71992241815552_2_alg».proof.Proof.Gen.KernelIdeal.Skeleton
import proofs.«110937_j71992241815552_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Keys

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the region's run is stated over: each input's staging buffer holds its block after the body as before it;
    the first output's holds the narrowed  keys · Wᵀ + bias  of the point's blocks, the second's the narrowed value
    block; the body keeps nothing between points (the invariant is the untouched scoped rest and the generator
    register); nothing is owed; the arrays are held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => k0_pay1 (blk V c 0 t) (blk V c 2 t) (blk V c 3 t)
    | ⟨5, _⟩ => k0_pay2 (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = k0_pay1 (blk V c 0 t) (blk V c 2 t) (blk V c 3 t) := by dsimp only [dat]
theorem after_5 (c : Dev nD) (t : Fin cfg0.N) : (dat V c).after 5 t = k0_pay2 (blk V c 1 t) := by dsimp only [dat]

end Cert.KernelIdeal.Keys

end
-- ==== Proof.KI.KeysBody.lean ====
/-
  Region 0's body obligation: at every grid point the body, called on the windows' current staging buffers,
  reads the key block, the weight matrix, the bias and the value block — each staging buffer holds its window's
  block, fetched at this point or (the weight matrix and the bias) kept from the first — and leaves the two output
  buffers at the narrowed  keys · Wᵀ + bias  and the narrowed value block.  The body keeps nothing between points.
-/
import proofs.«110937_j71992241815552_2_alg».proof.Proof.KI.KeysData
import Idealize.ShloMosaic.Lib.Pipeline.Value

set_option maxRecDepth 16384

noncomputable section

namespace Cert.KernelIdeal.Keys

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks

An input's body leaves its block in place, so its current staging buffer holds the block of the point whether the
block was fetched at this point or at an earlier one (the block index has not moved since). -/

theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)

theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-! ## The body's triple

The body loads each input through the whole rectangle of its buffer (so reads the buffer's contents), and stores into
each output, through the whole rectangle of its buffer, one payload: the narrowed  keys · Wᵀ + bias  into the first,
the narrowed value block into the second.  The loads of the outputs that precede the stores read values nothing uses. -/

/-- Offsets spelt as a literal vector of zeros are the zero offsets (rank 2, rank 1). -/
theorem zero2 : (![0, 0] : Fin 2 → Nat) = fun _ => 0 := by funext a; fin_cases a <;> rfl
theorem zero1 : (![0] : Fin 1 → Nat) = fun _ => 0 := by funext a; fin_cases a; rfl

set_option maxHeartbeats 1000000 in
/-- The body on any whole memrefs, the inputs' at contents `xk`, `xv`, `xw`, `xb` and the outputs' at anything,
    runs to the continuation holding the inputs' as they were, the first output's at the narrowed
    `xk · xw + xb` and the second's at the narrowed `xv` (the two payloads of its stores). -/
theorem sound_kernel (c : Dev nD) (E : Set ℕ) (i : grid0.Coords)
    (keys : Memref sig .tc .vmem S800x1024 .f32) (hkeys : keys.IsWhole)
    (vals : Memref sig .tc .vmem S800x1024 .f32) (hvals : vals.IsWhole)
    (wts : Memref sig .tc .vmem S1024x1024 .bf16) (hwts : wts.IsWhole)
    (bias : Memref sig .tc .vmem S1024 .f32) (hbias : bias.IsWhole)
    (okeys : Memref sig .tc .vmem S800x1024 .bf16) (hokeys : okeys.IsWhole)
    (ovals : Memref sig .tc .vmem S800x1024 .bf16) (hovals : ovals.IsWhole)
    (xk : Vec F S800x1024 .f32) (xv : Vec F S800x1024 .f32) (xw : Vec F S1024x1024 .bf16) (xb : Vec F S1024 .f32)
    (K : PUnit → sProp 𝕄) :
    iprop(owns (c : Thread nD τ) keys fullShare xk ∗ owns (c : Thread nD τ) vals fullShare xv
        ∗ owns (c : Thread nD τ) wts fullShare xw ∗ owns (c : Thread nD τ) bias fullShare xb
        ∗ (∃ d, owns (c : Thread nD τ) okeys fullShare d) ∗ (∃ d, owns (c : Thread nD τ) ovals fullShare d)
        ∗ (iprop(owns (c : Thread nD τ) keys fullShare xk ∗ owns (c : Thread nD τ) vals fullShare xv
            ∗ owns (c : Thread nD τ) wts fullShare xw ∗ owns (c : Thread nD τ) bias fullShare xb
            ∗ owns (c : Thread nD τ) okeys fullShare (k0_pay1 xk xw xb)
            ∗ owns (c : Thread nD τ) ovals fullShare (k0_pay2 xv)) -∗ K ⟨⟩))
      ⊢ wp frame (wpE (defs₀ (F := F)) Variants.none c none) E
          (cc0__tkeys_kernel i keys hkeys vals hvals wts hwts bias hbias okeys hokeys ovals hovals) K := by
  simp only [cc0__tkeys_kernel_eq_skeleton]; unfold cc0__tkeys_kernel_skel
  unfold owns
  iintro ⟨⟨%fk, %hfk, Hk0⟩, ⟨%fv, %hfv, Hv0⟩, ⟨%fw, %hfw, Hw0⟩, ⟨%fb, %hfb, Hb0⟩, ⟨%dk, %gk, -, Hok⟩, ⟨%dv, %gv, -, Hov⟩, HK⟩
  subst hfk hfv hfw hfb
  sl_exec
  sl_step
  iapply HK
  isplitl [Hk0]
  · iexists fk; isplitr; · ipureintro; rfl
    iexact Hk0
  isplitl [Hv0]
  · iexists fv; isplitr; · ipureintro; rfl
    iexact Hv0
  isplitl [Hw0]
  · iexists fw; isplitr; · ipureintro; rfl
    iexact Hw0
  isplitl [Hb0]
  · iexists fb; isplitr; · ipureintro; rfl
    iexact Hb0
  isplitl [Hok]
  · iexists _; isplitr
    swap; · iexact Hok
    ipureintro
    refine (View.read_writes_eq_canon _ _ _
      (fun y => ⟨_, List.mem_singleton_self _, View.mem_set_unit_zero zero2 inb_S800x1024_S800x1024_0_0 y⟩)).trans ?_
    rw [View.canon_unit_zero zero2, View.readAt_eq_ld, View.readAt_eq_ld, View.readAt_eq_ld,
      View.ld_unit_zero zero2, View.ld_unit_zero zero2, View.ld_unit_zero zero1]
  iexists _; isplitr
  swap; · iexact Hov
  ipureintro
  refine (View.read_writes_eq_canon _ _ _
    (fun y => ⟨_, List.mem_singleton_self _, View.mem_set_unit_zero zero2 inb_S800x1024_S800x1024_0_0 y⟩)).trans ?_
  rw [View.canon_unit_zero zero2, View.readAt_eq_ld, View.ld_unit_zero zero2]

/-! ## The body obligation, at a generic point -/

/-- What the body is called with at point `t`: the invariant, the core's tally, and each window's current staging
    buffer — an input's at what it held before the body, an output's at what it held before the body. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- What it returns: the same, each buffer at what the proof data says the body leaves in it. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the four inputs' buffers hold their blocks, so the body's triple applies with the blocks
    as the read contents; the invariant and the core's tally pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation (c : Dev nD) : BodyObligation (dat (F := F) V c) (defs₀ (F := F)) Variants.none () Set.univ := fun t => by
  rw [bigSep_W0, bigSep_W0]
  exact sound_body V c t

end Cert.KernelIdeal.Keys

end
-- ==== Proof.KI.AttnData.lean ====
/-
  Region 1 of the kernel program (the weighted value sum): the data its run is stated over.

  The grid is 4 blocks of 1024 query rows by 50 blocks of 640 table rows, the table axis running fastest: point
  `t` is row block `t / 50` and table block `t % 50`.  Along a row block the body carries two things from one
  point to the next: the output block (the running sum over the table blocks seen so far of  exp(q · kᵀ) · v ) and
  a scratch column (the running row sums of  exp(q · kᵀ) ).  At the first table block both start from zero; at the
  last the output block is replaced by  ½ · lookup + (½ · sum) · (1 / rowsum) .  One point's update is `step`; what
  the two carried buffers hold after point `k` is `accAt`, by recursion on `k`.  The arrays are read as the region
  finds them, a parameter `V`.
-/
import proofs.«110937_j71992241815552_2_alg».proof.Proof.Gen.KernelIdeal.Launch
import proofs.«110937_j71992241815552_2_alg».proof.Proof.Gen.KernelIdeal.Skeleton
import proofs.«110937_j71992241815552_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One point's update of the carried pair (output block, row sums) from the point's query block `q`, key block
    `tk`, value block `vv` and lookup block `vl`: the row sums gain this block's, the output block gains this
    block's weighted values, and at the LAST table block the output block becomes the blend with the lookup. -/
def step (last : Bool) (q : Vec F S1024x1024 .bf16) (tk vv : Vec F S640x1024 .bf16) (vl : Vec F S1024x1024 .f32)
    (p : Vec F S1024x1024 .f32 × Vec F S1024x1 .f32) : Vec F S1024x1024 .f32 × Vec F S1024x1 .f32 :=
  (if last then k1_pay6 (k1_pay4 q tk p.2) vl (k1_pay5 q tk vv p.1) else k1_pay5 q tk vv p.1, k1_pay4 q tk p.2)

/-- What both carried buffers are reset to at the first table block of a row block: zeros. -/
def start : Vec F S1024x1024 .f32 × Vec F S1024x1 .f32 := (k1_pay1, k1_pay2)

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- `step` at grid point `t`, on the point's blocks; the last table block is the one with `t % 50 = 49`. -/
def stepAt (c : Dev nD) (t : Fin cfg1.N) (p : Vec F S1024x1024 .f32 × Vec F S1024x1 .f32) :
    Vec F S1024x1024 .f32 × Vec F S1024x1 .f32 :=
  step (decide (t.val % 50 = 49)) (blk V c 0 t) (blk V c 1 t) (blk V c 2 t) (blk V c 3 t) p

/-- The carried pair (output block, row sums) after the body at position `k`: from zeros at the first table block
    of a row block, from what position `k - 1` left otherwise. -/
def accAt (c : Dev nD) : (k : ℕ) → k < cfg1.N → Vec F S1024x1024 .f32 × Vec F S1024x1 .f32
  | 0, h => stepAt V c ⟨0, h⟩ start
  | k + 1, h =>
    if (k + 1) % 50 = 0 then stepAt V c ⟨k + 1, h⟩ start
    else stepAt V c ⟨k + 1, h⟩ (accAt c k (Nat.lt_of_succ_lt h))

theorem accAt_first (c : Dev nD) (t : Fin cfg1.N) (h0 : t.val % 50 = 0) :
    accAt V c t.val t.isLt = stepAt V c t start := by
  obtain ⟨n, hn⟩ := t
  cases n with
  | zero => rfl
  | succ n => exact (if_pos h0).trans rfl

theorem accAt_next (c : Dev nD) (t : Fin cfg1.N) (h0 : ¬ t.val % 50 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The body's two branch conditions as the printed scalar chains over the grid coordinates: the reset branch is
    taken at the first table block of a row block, the blend at the last. -/
abbrev condFirst (i : grid1.Coords) : Prop :=
  (Scalar.cmpi .ne (Scalar.extui (Scalar.cmpi .eq (BitVec.ofNat 32 (i 1).val) 0#32)) 0#32) = 1#1
abbrev condLast (i : grid1.Coords) : Prop :=
  (Scalar.cmpi .ne (Scalar.extui (Scalar.cmpi .eq (BitVec.ofNat 32 (i 1).val) 49#32)) 0#32) = 1#1
theorem hcondFirst : ∀ t : Fin cfg1.N, condFirst (grid1.coords t) ↔ t.val % 50 = 0 :=
  (by decide +kernel : ∀ t : Fin grid1.N, condFirst (grid1.coords t) ↔ t.val % 50 = 0)
theorem hcondLast : ∀ t : Fin cfg1.N, condLast (grid1.coords t) ↔ t.val % 50 = 49 :=
  (by decide +kernel : ∀ t : Fin grid1.N, condLast (grid1.coords t) ↔ t.val % 50 = 49)

/-- The kernel's scratch column, a whole scoped buffer passed beside the windows. -/
abbrev scM : Memref sig .tc .vmem S1024x1 .f32 := Memref.whole cc1_scratch0

/-- Region 0's staging buffers, which this region never touches, each whole at some contents, beside `X` (what is
    said of the scratch column). -/
def withOthers (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ X)

theorem withOthers_mono (c : Dev nD) {X Y : sProp 𝕄} (h : X ⊢ Y) : withOthers (F := F) c X ⊢ withOthers c Y := by
  unfold withOthers
  exact sep_mono .rfl (sep_mono .rfl (sep_mono .rfl (sep_mono .rfl (sep_mono .rfl (sep_mono .rfl (sep_mono .rfl (sep_mono .rfl (sep_mono .rfl (sep_mono .rfl (h))))))))))

/-- The region's invariant before position `n`: before the first point the scoped rest at anything and the
    generator register; afterwards the scratch column at the row sums position `n - 1` left, the other scoped
    buffers at anything, the generator register. -/
def PhiS (c : Dev nD) : (n : ℕ) → n ≤ cfg1.N → sProp 𝕄
  | 0, _ => Pipeline.ΦA spec1 c
  | n + 1, hn => iprop(withOthers c (owns (c : Thread nD τ) scM fullShare (accAt V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withOthers c (owns (c : Thread nD τ) scM fullShare (accAt V c n hn).2) ∗ (∃ r, prngReg c r)) := rfl

theorem PhiS_pos (c : Dev nD) (n : ℕ) (h : n ≤ cfg1.N) (hz : n ≠ 0) :
    PhiS V c n h = iprop(withOthers c (owns (c : Thread nD τ) scM fullShare (accAt V c (n - 1) (by omega)).2) ∗ (∃ r, prngReg c r)) := by
  cases n with
  | zero => exact absurd rfl hz
  | succ n => rfl

/-- The scoped rest is the other buffers beside the scratch column owned, as a memref, at some contents. -/
theorem PhiA_eq (c : Dev nD) :
    (Pipeline.ΦA spec1 c : sProp 𝕄) = iprop(withOthers c iprop(∃ d, owns (c : Thread nD τ) scM fullShare d) ∗ (∃ r, prngReg c r)) := by
  unfold Pipeline.ΦA withOthers; rw [scopedRest1_eq]; simp only [scM, owns_whole]; rfl

/-- What the region's run is stated over: each input's staging buffer holds its block after the body as before it;
    the output's holds the carried output block; the invariant carries the row sums; nothing is owed; the arrays
    are held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (accAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = (accAt V c t.val t.isLt).1 := by dsimp only [dat]

theorem Phi_castSucc (c : Dev nD) (t : Fin cfg1.N) :
    (dat V c).Φ t.castSucc = PhiS V c t.val (Nat.le_of_lt t.isLt) := by
  dsimp only [dat]; simp only [Fin.coe_castSucc]

end Cert.KernelIdeal.Attn

end
-- ==== Proof.KI.AttnRunLast.lean ====
/-
  Region 1's body at the last table block of a row block.

  The reset branch is not taken and the blend branch is.  The body reads the query, key and value blocks and the
  scratch column, stores the advanced row sums into the scratch column and the advanced weighted-value sum into the
  output buffer, then reads the scratch column, the lookup block and the output buffer back and stores the blend
  into the output buffer.  Every access is through the whole buffer, so each read returns what the buffer holds
  (the last whole store's value, when there was one) and each buffer ends at its last whole store's value: the
  carried pair ends at one step, with the blend, from what it held.
-/
import proofs.«110937_j71992241815552_2_alg».proof.Proof.KI.AttnData
import Idealize.ShloMosaic.Lib.Pipeline.Value

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access, as the body spells them. -/
theorem hz2 : (![0, 0] : Fin 2 → Nat) = fun _ => 0 := funext fun a => by fin_cases a <;> rfl

set_option maxHeartbeats 4000000 in
/-- The last table block: the carried pair advances by one step and the output block is blended with the lookup. -/
theorem run_last (c : Dev nD) (E : Set ℕ) (i : grid1.Coords) (hf : ¬ condFirst i) (hl : condLast i)
    (arg2 : Memref sig .tc .vmem S1024x1024 .bf16) (harg2 : arg2.IsWhole) (arg3 : Memref sig .tc .vmem S640x1024 .bf16) (harg3 : arg3.IsWhole)
    (arg4 : Memref sig .tc .vmem S640x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1 .f32) (harg7 : arg7.IsWhole)
    (q : Vec F S1024x1024 .bf16) (tk vv : Vec F S640x1024 .bf16) (vl : Vec F S1024x1024 .f32) (o : Vec F S1024x1024 .f32) (s : Vec F S1024x1 .f32) (K : PUnit → sProp 𝕄) :
    iprop(owns (c : Thread nD τ) arg2 fullShare q ∗ owns (c : Thread nD τ) arg3 fullShare tk ∗ owns (c : Thread nD τ) arg4 fullShare vv
        ∗ owns (c : Thread nD τ) arg5 fullShare vl
        ∗ owns (c : Thread nD τ) arg6 fullShare o ∗ owns (c : Thread nD τ) arg7 fullShare s
        ∗ (iprop(owns (c : Thread nD τ) arg2 fullShare q ∗ owns (c : Thread nD τ) arg3 fullShare tk ∗ owns (c : Thread nD τ) arg4 fullShare vv
        ∗ owns (c : Thread nD τ) arg5 fullShare vl
            ∗ owns (c : Thread nD τ) arg6 fullShare (step true q tk vv vl (o, s)).1
            ∗ owns (c : Thread nD τ) arg7 fullShare (step true q tk vv vl (o, s)).2) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [View.read_writes_eq_canon _ _ _ (fun y => ⟨_, List.mem_cons_self, View.mem_set_unit_zero hz2 inb_S1024x1024_S1024x1024_0_0 y⟩)]
    rw [View.canon_cons_unit_zero (S := S1024x1024) hz2]
    sl_unfold_words
    rw [View.readCov_unit_zero (S := S1024x1) _ hz2, View.readCov_unit_zero (S := S1024x1024) _ hz2]
    simp only [View.readAt_eq_ld, hf2, hf3, hf4, hf5, hf6, hf7, View.ld_unit_zero (S := S1024x1024) hz2,
      View.ld_unit_zero (S := S640x1024) hz2, View.ld_unit_zero (S := S1024x1) hz2]
    rfl
  · iexists _; isplitr
    swap; · iexact H7
    ipureintro
    sl_unfold_words
    rw [View.read_writes_eq_canon _ _ _ (fun y => ⟨_, List.mem_cons_self, View.mem_set_unit_zero hz2 inb_S1024x1_S1024x1_0_0 y⟩)]
    rw [View.canon_unit_zero (S := S1024x1) hz2]
    simp only [View.readAt_eq_ld, hf2, hf3, hf7, View.ld_unit_zero (S := S1024x1024) hz2,
      View.ld_unit_zero (S := S640x1024) hz2, View.ld_unit_zero (S := S1024x1) hz2]
    rfl

end Cert.KernelIdeal.Attn

end
-- ==== Proof.KI.AttnRuns.lean ====
/-
  Region 1's body, run once per control case, on any whole staging memrefs and any contents.

  The body branches twice on the table-block coordinate: it resets the two carried buffers at the first table
  block, and blends with the lookup at the last.  A row block has 50 table blocks, so three cases occur: first
  (reset, then accumulate), middle (accumulate), last (accumulate, then blend).  In each the four input buffers
  are read and left as they were, and the carried pair ends at `step` of the point's blocks: from zeros in the
  first case (whatever the two buffers held), from what they held in the other two.
-/
import proofs.«110937_j71992241815552_2_alg».proof.Proof.KI.AttnData
import proofs.«110937_j71992241815552_2_alg».proof.Proof.KI.AttnRunLast
import Idealize.ShloMosaic.Lib.Pipeline.Value

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, as the constant function. -/
private theorem zeros2 : (![0, 0] : Fin 2 → Nat) = fun _ => 0 := by funext a; fin_cases a <;> rfl

/-- A load of a whole buffer, held at the raw contents that read `X`, through the whole-shape rectangle reads `X`. -/
private theorem readAt_whole_unread {κ : Kind} {sp : Space} {S : Shape} {e : EltTy} {m : Memref sig κ sp S e} (h : m.IsWhole)
    (X : S.Idx → Elt F e) {off : Fin S.rank → Nat} (h0 : off = fun _ => 0) (inb : ∀ a, off a + S.size a ≤ S.size a) :
    View.readAt (Elt F) m.view (Rect.unit off S.size inb).toLoadRect (h.unread X) = X := by
  refine (View.readAt_eq_ld m.view (h.unread X) (Rect.unit off S.size inb)).trans ?_
  rw [h.read_unread X]
  exact View.ld_unit_zero h0 inb X

/-- After a store through the whole-shape rectangle, made last, a buffer reads that store's payload, whatever it held
    and whatever was stored before. -/
private theorem read_writes_whole {κ : Kind} {sp : Space} {S : Shape} {e : EltTy} (v : View sig κ sp S e) (f : v.ty.Contents (Elt F))
    {off : Fin S.rank → Nat} (h0 : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  refine (View.read_writes_eq_canon v f _ (fun y => ⟨_, List.mem_cons_self, View.mem_set_unit_zero h0 inb y⟩)).trans ?_
  exact View.canon_cons_unit_zero h0 inb w L

set_option maxHeartbeats 4000000 in
/-- The first table block of a row block: the two carried buffers, whatever they held, end at one step from zeros. -/
theorem run_first (c : Dev nD) (E : Set ℕ) (i : grid1.Coords) (hf : condFirst i) (hl : ¬ condLast i)
    (arg2 : Memref sig .tc .vmem S1024x1024 .bf16) (harg2 : arg2.IsWhole) (arg3 : Memref sig .tc .vmem S640x1024 .bf16) (harg3 : arg3.IsWhole)
    (arg4 : Memref sig .tc .vmem S640x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1 .f32) (harg7 : arg7.IsWhole)
    (q : Vec F S1024x1024 .bf16) (tk vv : Vec F S640x1024 .bf16) (vl : Vec F S1024x1024 .f32) (K : PUnit → sProp 𝕄) :
    iprop(owns (c : Thread nD τ) arg2 fullShare q ∗ owns (c : Thread nD τ) arg3 fullShare tk ∗ owns (c : Thread nD τ) arg4 fullShare vv
        ∗ owns (c : Thread nD τ) arg5 fullShare vl
        ∗ (∃ d, owns (c : Thread nD τ) arg6 fullShare d) ∗ (∃ d, owns (c : Thread nD τ) arg7 fullShare d)
        ∗ (iprop(owns (c : Thread nD τ) arg2 fullShare q ∗ owns (c : Thread nD τ) arg3 fullShare tk ∗ owns (c : Thread nD τ) arg4 fullShare vv
        ∗ owns (c : Thread nD τ) arg5 fullShare vl
            ∗ owns (c : Thread nD τ) arg6 fullShare (step false q tk vv vl start).1
            ∗ owns (c : Thread nD τ) arg7 fullShare (step false q tk vv vl start).2) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3; obtain rfl := harg4.eq_unread hf4
  obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · ipureintro
      refine (read_writes_whole _ _ zeros2 _ _ _).trans ?_
      -- the output block's last store is the accumulation over what the reset left, which reads back as the zeros
      sl_unfold_run_names
      rw [readAt_whole_unread harg2 q zeros2, readAt_whole_unread harg3 tk zeros2, readAt_whole_unread harg4 vv zeros2,
        View.readCov_unit_zero arg6.view zeros2]
      rfl
  · iexists _; isplitr
    swap
    · iexact H7
    · ipureintro
      refine (read_writes_whole _ _ zeros2 _ _ _).trans ?_
      -- likewise the row sums: this block's sums added to the zeros the reset left
      sl_unfold_run_names
      rw [readAt_whole_unread harg2 q zeros2, readAt_whole_unread harg3 tk zeros2, View.readCov_unit_zero arg7.view zeros2]
      rfl

set_option maxHeartbeats 4000000 in
/-- A middle table block: the carried pair advances by one step. -/
theorem run_mid (c : Dev nD) (E : Set ℕ) (i : grid1.Coords) (hf : ¬ condFirst i) (hl : ¬ condLast i)
    (arg2 : Memref sig .tc .vmem S1024x1024 .bf16) (harg2 : arg2.IsWhole) (arg3 : Memref sig .tc .vmem S640x1024 .bf16) (harg3 : arg3.IsWhole)
    (arg4 : Memref sig .tc .vmem S640x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1 .f32) (harg7 : arg7.IsWhole)
    (q : Vec F S1024x1024 .bf16) (tk vv : Vec F S640x1024 .bf16) (vl : Vec F S1024x1024 .f32) (o : Vec F S1024x1024 .f32) (s : Vec F S1024x1 .f32) (K : PUnit → sProp 𝕄) :
    iprop(owns (c : Thread nD τ) arg2 fullShare q ∗ owns (c : Thread nD τ) arg3 fullShare tk ∗ owns (c : Thread nD τ) arg4 fullShare vv
        ∗ owns (c : Thread nD τ) arg5 fullShare vl
        ∗ owns (c : Thread nD τ) arg6 fullShare o ∗ owns (c : Thread nD τ) arg7 fullShare s
        ∗ (iprop(owns (c : Thread nD τ) arg2 fullShare q ∗ owns (c : Thread nD τ) arg3 fullShare tk ∗ owns (c : Thread nD τ) arg4 fullShare vv
        ∗ owns (c : Thread nD τ) arg5 fullShare vl
            ∗ owns (c : Thread nD τ) arg6 fullShare (step false q tk vv vl (o, s)).1
            ∗ owns (c : Thread nD τ) arg7 fullShare (step false q tk vv vl (o, s)).2) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · ipureintro
      refine (read_writes_whole _ _ zeros2 _ _ _).trans ?_
      -- the output block's one store is the accumulation over what the block held
      rw [readAt_whole_unread harg2 q zeros2, readAt_whole_unread harg3 tk zeros2, readAt_whole_unread harg4 vv zeros2,
        readAt_whole_unread harg6 o zeros2]
      rfl
  · iexists _; isplitr
    swap
    · iexact H7
    · ipureintro
      refine (read_writes_whole _ _ zeros2 _ _ _).trans ?_
      -- the row sums' one store is this block's sums added to what the column held
      rw [readAt_whole_unread harg2 q zeros2, readAt_whole_unread harg3 tk zeros2, readAt_whole_unread harg7 s zeros2]
      rfl

end Cert.KernelIdeal.Attn

end
-- ==== Proof.KI.AttnBody.lean ====
/-
  Region 1's body obligation: at every grid point the body, called on the windows' current staging buffers,
  takes the region's invariant and the buffers at what they hold before the point to the invariant and the
  buffers at what the proof data says they hold after it.  The inputs hold their blocks, fetched at this point or
  kept from an earlier one; the output buffer is not written back inside a row block, so from the second table
  block on it still holds what the point before left; the scratch column rides in the invariant.  The three
  control cases are decided from the point's position in its row block.
-/
import proofs.«110937_j71992241815552_2_alg».proof.Proof.KI.AttnRuns

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the staging buffers hold before a point -/

/-- An input's current staging buffer holds the point's block of its array, whether the block was fetched at this
    point or at an earlier one of the same row block: unfetched, the block index has not moved, and the body
    leaves every input as it finds it. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)

theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)

theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-- Past the first table block of a row block the output's current staging buffer holds what the body left at the
    point before: that point is in the same row block and not its last, so the buffer was not written back. -/
theorem before_4 (c : Dev nD) (t : Fin cfg1.N) (h0 : ¬ t.val % 50 = 0) (d) :
    (dat V c).before 4 t d = (accAt V c (t.val - 1) (Nat.lt_of_le_of_lt (Nat.sub_le _ _) t.isLt)).1 := by
  have hN : t.val < 200 := lt_of_lt_of_eq t.isLt N_1
  rw [Dat.before_out_kept _ 4 rfl t (by omega)
    (Bool.eq_false_iff.mpr fun h => by have := (flush1_4 _).mp h; dsimp only at this; omega)
    (fun _ => rfl) (fun _ _ => rfl)]
  dsimp only [dat]

/-! ## The body obligation, at a generic point -/

/-- Each window's current staging memref at point `t`, as the pipeline passes it to the body, and its wholeness. -/
abbrev ms_0 (t : Fin cfg1.N) : Memref sig .tc .vmem S1024x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S640x1024 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S640x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x1024 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x1024 .f32 := win1_4.stage (cfg1.slots t 4)
abbrev hs_4 (t : Fin cfg1.N) : (ms_4 t).IsWhole := hstage1_4 ((cfg1.slots t 4).cast nbuf1_4)

/-- What the body is called with at point `t`: the invariant, what the core owes, and the five windows' current
    buffers at what they hold then, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns: the invariant at the next point, the same owed, the buffers at what the body leaves. -/
def bodyPost (c : Dev nD) (t : Fin cfg1.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t)
    ∗ owns (c : Thread nD τ) (ms_4 t) fullShare ((dat V c).after 4 t))

/-- Before any point the invariant has the scratch column at some contents beside the other scoped buffers. -/
theorem PhiS_any (c : Dev nD) (n : ℕ) (h : n ≤ cfg1.N) :
    PhiS V c n h ⊢ iprop(withOthers c iprop(∃ d, owns (c : Thread nD τ) scM fullShare d) ∗ (∃ r, prngReg c r)) := by
  cases n with
  | zero => rw [PhiS_zero V c 0 h rfl, PhiA_eq]
  | succ n =>
    rw [PhiS_succ]
    refine sep_mono (withOthers_mono c ?_) .rfl
    iintro H
    iexists _; iexact H

set_option maxHeartbeats 4800000 in
/-- The body at any point.  The inputs' buffers hold their blocks.  At the first table block of a row block the
    body resets the carried pair, so whatever the output buffer and the scratch column hold is accepted, and both
    end at one step from zeros.  At a later table block the output buffer holds what the point before left and the
    invariant hands over the scratch column at the row sums the point before left, so the pair advances by one
    step, with the blend at the last table block.  In each case the invariant takes the scratch column back at
    this point's row sums, and the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [after_0, after_1, after_2, after_3, after_4, Phi_castSucc V c t]
  have hN : t.val < 200 := lt_of_lt_of_eq t.isLt N_1
  by_cases h0 : t.val % 50 = 0
  · have h49 : ¬ t.val % 50 = 49 := by omega
    rw [accAt_first V c t h0]
    unfold stepAt
    rw [decide_eq_false h49]
    refine (sep_mono (PhiS_any V c _ _) .rfl).trans ?_
    unfold withOthers
    iintro ⟨⟨⟨Hb0, Hb1, Hb2, Hb3, Hb4, Hb5, Hb6, Hb7, Hb8, Hb9, HS⟩, Hg⟩, Ho, ⟨%d0, H0⟩, ⟨%d1, H1⟩, ⟨%d2, H2⟩, ⟨%d3, H3⟩, ⟨%d4, H4⟩⟩
    iapply (run_first c Set.univ (grid1.coords t) ((hcondFirst t).mpr h0) (fun h => h49 ((hcondLast t).mp h))
      _ _ _ _ _ _ _ _ _ _ _ _ (blk V c 0 t) (blk V c 1 t) (blk V c 2 t) (blk V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hb0 Hb1 Hb2 Hb3 Hb4 Hb5 Hb6 Hb7 Hb8 Hb9 HS Hg]
    · isplitl [Hb0 Hb1 Hb2 Hb3 Hb4 Hb5 Hb6 Hb7 Hb8 Hb9 HS]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        iexact HS
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [accAt_next V c t h0]
    unfold stepAt
    simp only [before_4 V c t h0]
    rw [PhiS_pos V c _ _ hz]
    by_cases h49 : t.val % 50 = 49
    · rw [decide_eq_true h49]
      unfold withOthers
      iintro ⟨⟨⟨Hb0, Hb1, Hb2, Hb3, Hb4, Hb5, Hb6, Hb7, Hb8, Hb9, HS⟩, Hg⟩, Ho, ⟨%d0, H0⟩, ⟨%d1, H1⟩, ⟨%d2, H2⟩, ⟨%d3, H3⟩, ⟨%d4, H4⟩⟩
      iapply (run_last c Set.univ (grid1.coords t) (fun h => h0 ((hcondFirst t).mp h)) ((hcondLast t).mpr h49)
        _ _ _ _ _ _ _ _ _ _ _ _ (blk V c 0 t) (blk V c 1 t) (blk V c 2 t) (blk V c 3 t)
        (accAt V c (t.val - 1) (Nat.lt_of_le_of_lt (Nat.sub_le _ _) t.isLt)).1
        (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hb0 Hb1 Hb2 Hb3 Hb4 Hb5 Hb6 Hb7 Hb8 Hb9 HS Hg]
      · isplitl [Hb0 Hb1 Hb2 Hb3 Hb4 Hb5 Hb6 Hb7 Hb8 Hb9 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      isplitl [H3]; · iexact H3
      iexact H4
    · rw [decide_eq_false h49]
      unfold withOthers
      iintro ⟨⟨⟨Hb0, Hb1, Hb2, Hb3, Hb4, Hb5, Hb6, Hb7, Hb8, Hb9, HS⟩, Hg⟩, Ho, ⟨%d0, H0⟩, ⟨%d1, H1⟩, ⟨%d2, H2⟩, ⟨%d3, H3⟩, ⟨%d4, H4⟩⟩
      iapply (run_mid c Set.univ (grid1.coords t) (fun h => h0 ((hcondFirst t).mp h)) (fun h => h49 ((hcondLast t).mp h))
        _ _ _ _ _ _ _ _ _ _ _ _ (blk V c 0 t) (blk V c 1 t) (blk V c 2 t) (blk V c 3 t)
        (accAt V c (t.val - 1) (Nat.lt_of_le_of_lt (Nat.sub_le _ _) t.isLt)).1
        (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hb0 Hb1 Hb2 Hb3 Hb4 Hb5 Hb6 Hb7 Hb8 Hb9 HS Hg]
      · isplitl [Hb0 Hb1 Hb2 Hb3 Hb4 Hb5 Hb6 Hb7 Hb8 Hb9 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      isplitl [H3]; · iexact H3
      iexact H4

/-- The body obligation of region 1, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]

/-- After the last point the invariant gives the scoped rest back, the row sums forgotten. -/
theorem hout (c : Dev nD) : (dat V c).Φ (Fin.last cfg1.N) ⊢ (Pipeline.ΦA spec1 c : sProp 𝕄) := by
  have hN : (Fin.last cfg1.N).val ≠ 0 := by rw [Fin.val_last]; have : cfg1.N = 200 := N_1; omega
  rw [show (dat V c).Φ (Fin.last cfg1.N) = PhiS V c (Fin.last cfg1.N).val (Nat.le_of_lt_succ (Fin.last cfg1.N).isLt) from rfl,
    PhiS_pos V c _ _ hN, PhiA_eq]
  refine sep_mono (withOthers_mono c ?_) .rfl
  iintro H
  iexists _; iexact H

end Cert.KernelIdeal.Attn

end
-- ==== Proof.KI.Whole.lean ====
/-
  The run of the whole program.

  The program is one stretch of 21 host operations, then the key-projection region, then the weighted-sum
  region, and nothing after.  Between two of these a core holds every unscoped buffer whole at a known valuation:
  the launch memory, then what the host stretch computes from it, then — after each region — the region's arrays
  at what its write-backs leave and every other buffer as the region found it.  Each region is entered from the
  valuation before it and left at the one after it; the second region's invariant is its own (it carries the row
  sums between points), entered from and left to the scoped rest and the generator register.  The run ends with
  every unscoped buffer read off the last valuation; the six argument arrays are read back through the
  valuations to the launch memory, and the last region's output array to what its write-backs leave.
-/
import proofs.«110937_j71992241815552_2_alg».proof.Proof.KI.KeysBody
import proofs.«110937_j71992241815552_2_alg».proof.Proof.KI.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => m (c, b)
/-- After the host stretch (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves (the inputs as entered, each output's
    write-backs folded), every other buffer as entered. -/
def W2 (c : Dev nD) : Valuation τ sig (Elt F) := Pipeline.withArrays spec0 c (W1 m c) fun w => (Keys.dat (V1 m) c).arrAt w cfg0.N
theorem W2_arr (c : Dev nD) (w : Fin cfg0.W) :
    W2 m c (Proc.devRef .tc (Pipeline.arrRef spec0 w)) = (Keys.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m c b
theorem hF0 (c : Dev nD) (w : Fin cfg0.W) : (Keys.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its arrays at what the pipeline leaves, every other buffer as entered. -/
def W3 (c : Dev nD) : Valuation τ sig (Elt F) := Pipeline.withArrays spec1 c (W2 m c) fun w => (Attn.dat (V2 m) c).arrAt w cfg1.N
theorem W3_arr (c : Dev nD) (w : Fin cfg1.W) :
    W3 m c (Proc.devRef .tc (Pipeline.arrRef spec1 w)) = (Attn.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (the last contents). -/
abbrev V3 : (c : Dev nD) → (b : Ref sig .tc) → Buf (Elt F) ((c : Thread nD τ).loc b) := fun c b => W3 m c b
theorem hF1 (c : Dev nD) (w : Fin cfg1.W) : (Attn.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: no host operation writes one, and a region reads it through an input
    window (whose array ends as entered) or bypasses it -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 0).trans (((Keys.dat (V1 m) c).arrAt_in 0 rfl _).trans (Keys.A_eq (V1 m) c 0))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 1).trans (((Keys.dat (V1 m) c).arrAt_in 1 rfl _).trans (Keys.A_eq (V1 m) c 1))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 3).trans (((Keys.dat (V1 m) c).arrAt_in 3 rfl _).trans (Keys.A_eq (V1 m) c 3))
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ### What the regions hand on -/

/-- The output array ends at what the second region's write-backs leave. -/
theorem W3_out (c : Dev nD) : W3 m c (Proc.devRef .tc main_v18) = (Attn.dat (V2 m) c).arrAt 4 cfg1.N := W3_arr m c 4
/-- The second region finds the projected keys and the narrowed values as the first region's write-backs leave them, -/
theorem V2_keys (c : Dev nD) : V2 m c main_v17_0 = (Keys.dat (V1 m) c).arrAt 4 cfg0.N := W2_arr m c 4
theorem V2_vals (c : Dev nD) : V2 m c main_v17_1 = (Keys.dat (V1 m) c).arrAt 5 cfg0.N := W2_arr m c 5
/-- and the queries and the lookup rows as the host stretch leaves them. -/
theorem V2_query (c : Dev nD) : V2 m c main_v16 = V1 m c main_v16 := W2_of_ne m c main_v16 (by decide)
theorem V2_lookup (c : Dev nD) : V2 m c main_v13 = V1 m c main_v13 := W2_of_ne m c main_v13 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Keys.dat (V1 m) c
  | ⟨1, _⟩ => fun c => Attn.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register
    at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The key projection over the thread state: entered from every unscoped buffer at `W1`, left at `W2`.  Its arrays
    are split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Keys.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The weighted sum over the thread state: entered from every unscoped buffer at `W2`, left at `W3`.  Its
    invariant is its own: the launch's scoped rest and generator register make it before the first point, and
    after the last it gives them back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from Attn.hin (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from Attn.hout (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order: the host stretch from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- The program IS the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and in every final state each unscoped buffer of each core holds what the last
    valuation `W3` says. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Whole

end
-- ==== Proof.KI.KeysPay.lean ====
/-
  The two payloads of region 0's body read entry by entry, at the ideal instance.

  A change of float format is the identity on ideal values, a cast of a vector to its own shape is the vector, and a
  product into the zero accumulator is the plain sum of products over the contracted axis.  The bias, a vector of
  length 1024, is first given a unit row axis and then repeated over the 800 rows, so at row r, column k it is the
  bias at k.  Hence the first payload at (r, k) is  Σ_d x0[r, d] · x2[d, k] + x3[k]  and the second payload is its
  operand.
-/
import proofs.«110937_j71992241815552_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KeysValue

open Idealize.ShloMosaic Idealize.ShloMosaic.TcCoe Idealize.ShloMosaic.ValueIdx
open Cert.KernelIdeal Cert.KernelIdeal.Gen

/-- The contraction of the body's product: rows by columns over the shared axis of length 1024. -/
abbrev dotK := dot_S800x1024_S1024x1024_S800x1024_1_0_0_1_n_n

/-- Where the product reads its operands: the left one at the output's row, the right one at the output's column. -/
theorem lhs_row (j : S800x1024.Idx) (q : dotK.contr.Idx) : (dotK.lhsIdx j q 0).val = (j 0).val := by
  unfold DotDims.lhsIdx
  rw [dif_neg (show ¬(0 : Fin S800x1024.rank) ∈ dotK.lhsBatch by decide), dif_pos (show (0 : Fin S800x1024.rank) ∈ dotK.lhsNonContracting by decide)]
  rfl
theorem rhs_col (j : S800x1024.Idx) (q : dotK.contr.Idx) : (dotK.rhsIdx j q 1).val = (j 1).val := by
  unfold DotDims.rhsIdx
  rw [dif_neg (show ¬(1 : Fin S1024x1024.rank) ∈ dotK.rhsBatch by decide), dif_pos (show (1 : Fin S1024x1024.rank) ∈ dotK.rhsNonContracting by decide)]
  rfl

/-- The product into the zero accumulator at row `r`, column `k`: the sum over the shared axis. -/
theorem prod_apply (a : FVec Ideal S800x1024 .bf16) (b : FVec Ideal S1024x1024 .bf16) (r : Fin 800) (k : Fin 1024) :
    FloatOps.matmul dotK none a b (constant S800x1024 .f32 0x00000000#32) (ix2 r k)
      = ∑ d : Fin 1024, a (ix2 r d) * b (ix2 d k) := by
  refine (Ideal.matmul_constant_zero_apply dotK none a b (ix2 r k)).trans ?_
  rw [← Equiv.sum_comp (contrEquiv1 dotK 1024 rfl rfl).symm]
  refine Finset.sum_congr rfl fun d _ => ?_
  have hd := contrEquiv1_symm_val dotK 1024 rfl rfl d
  have el : dotK.lhsIdx (ix2 r k) ((contrEquiv1 dotK 1024 rfl rfl).symm d) = ix2 r d := funext fun x => Fin.ext (by
    match x with
    | ⟨0, _⟩ => exact lhs_row _ _
    | ⟨1, _⟩ => exact (dotK.lhsIdx_val_of_single rfl _ _).trans hd)
  have er : dotK.rhsIdx (ix2 r k) ((contrEquiv1 dotK 1024 rfl rfl).symm d) = ix2 d k := funext fun x => Fin.ext (by
    match x with
    | ⟨0, _⟩ => exact (dotK.rhsIdx_val_of_single rfl _ _).trans hd
    | ⟨1, _⟩ => exact rhs_col _ _)
  rw [el, er]

/-- The first payload at row `r`, column `k`: the key block times the transposed weights, plus the bias. -/
theorem pay1_apply (x0 : Vec Ideal S800x1024 .f32) (x2 : Vec Ideal S1024x1024 .bf16) (x3 : Vec Ideal S1024 .f32)
    (r : Fin 800) (k : Fin 1024) :
    k0_pay1 x0 x2 x3 (ix2 r k) = (∑ d : Fin 1024, x0 (ix2 r d) * x2 (ix2 d k)) + x3 (ix1 k) := by
  unfold k0_pay1
  rw [truncf_apply, addf_apply, shapeCast_self]
  refine congrArg₂ (· + ·) ?_ ?_
  · exact prod_apply _ _ r k
  · rw [broadcastTo_1b_ab_apply, shapeCast_a_1a_apply]

/-- The second payload at an entry is its operand there: the value block. -/
theorem pay2_apply (x1 : Vec Ideal S800x1024 .f32) (i : S800x1024.Idx) : k0_pay2 x1 i = x1 i := rfl

end Cert.KernelIdeal.KeysValue

end
-- ==== Proof.Spec.lean ====
/-
  The two programs as whole-array functions, over the extended reals.

  Both compute, for a query row `i` and an output column `j`,

      ½ · lookup[i, j]  +  ½ · ( Σ_v e[i, v] · value[v, j] ) / ( Σ_v e[i, v] ),      e[i, v] = exp( Σ_k q[i, k] · p[v, k] ),

  `q` the gathered query rows, `lookup` the gathered value rows, `p` the projected keys
  p[v, k] = Σ_d key[v, d] · Wᵀ[d, k] + b[k]  (`projT`).  The reference halves every weight first (the temperature)
  and normalises each weight before the value product; the kernel keeps the plain weights, forms the two sums
  and multiplies by the reciprocal of the row sum at the end.  The two agree wherever every entry is a real
  number (`Law.lean`).  Nothing here mentions a program.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns, indexed as the programs' arrays are. -/
abbrev Mat (a b : Nat) : Type := (⟨2, ![a, b]⟩ : Shape).Idx → EReal
/-- A vector of extended reals of length `a`. -/
abbrev Col (a : Nat) : Type := (⟨1, ![a]⟩ : Shape).Idx → EReal

/-- The float literals of the two programs, as the extended reals they denote: ½, 1, 2 and 0. -/
abbrev half : EReal := Ideal.ofBits .f32 0x3F000000#32
abbrev one : EReal := Ideal.ofBits .f32 0x3F800000#32
abbrev two : EReal := Ideal.ofBits .f32 0x40000000#32
abbrev zero : EReal := Ideal.ofBits .f32 0x00000000#32

/-- The projected keys from the TRANSPOSED weight matrix `wt` (both programs transpose `W` on the host first):
    row `v`, column `k` is  Σ_d key[v, d] · wt[d, k] + b[k]. -/
def projT (key : Mat 32000 1024) (wt : Mat 1024 1024) (b : Col 1024) : Mat 32000 1024 := fun i =>
  (∑ d : Fin 1024, key (ix2 (i 0) d) * wt (ix2 d (i 1))) + b (ix1 (i 1))

section
variable (q : Mat 4096 1024) (p : Mat 32000 1024) (val : Mat 32000 1024) (vl : Mat 4096 1024)

/-- The score of query row `i` against table row `v`:  Σ_k q[i, k] · p[v, k]. -/
def score (i : Fin 4096) (v : Fin 32000) : EReal := ∑ k : Fin 1024, q (ix2 i k) * p (ix2 v k)

/-- The plain weight  exp(score). -/
def wgt (i : Fin 4096) (v : Fin 32000) : EReal := Ideal.exp (score q p i v)

/-- The kernel's row sum  Σ_v e[i, v]  and weighted value sum  Σ_v e[i, v] · value[v, j]. -/
def rowSum (i : Fin 4096) : EReal := ∑ v : Fin 32000, wgt q p i v
def valSum (i : Fin 4096) (j : Fin 1024) : EReal := ∑ v : Fin 32000, wgt q p i v * val (ix2 v j)

/-- What the kernel program leaves in its result:  ½ · lookup + (½ · valSum) · (1 / rowSum). -/
def kern : Mat 4096 1024 := fun i =>
  half * vl i + (half * valSum q p val (i 0) (i 1)) * Ideal.div one (rowSum q p (i 0))

/-- The reference's halved weight, its row total (from the zero the host sum starts at) and normalised weight. -/
def hwgt (i : Fin 4096) (v : Fin 32000) : EReal := Ideal.div (wgt q p i v) two
def htot (i : Fin 4096) : EReal := zero + ∑ v : Fin 32000, hwgt q p i v
def nwgt (i : Fin 4096) (v : Fin 32000) : EReal := Ideal.div (hwgt q p i v) (htot q p i)

/-- What the reference leaves in its result:  ½ · lookup + ½ · Σ_v nwgt[i, v] · value[v, j]. -/
def ref : Mat 4096 1024 := fun i =>
  half * vl i + half * ∑ v : Fin 32000, nwgt q p (i 0) v * val (ix2 v (i 1))

end

/-- An array all of whose entries are real numbers. -/
def IsReal {ι : Type} (f : ι → EReal) : Prop := ∀ i, ∃ r : ℝ, f i = (r : EReal)

end Cert.Spec

end
-- ==== Proof.KI.KeysValue.lean ====
/-
  What region 0 leaves in its two output arrays, at the ideal instance.

  Block `t` of each output array is what point `t` wrote back, the 40 blocks of 800 rows tile the 32000 rows, and at
  point `t` the body's first payload is, entry by entry, the product of the key block with the transposed weights
  plus the bias (a product into a zero accumulator is the plain sum of products; a change of float format is the
  identity) and its second payload the value block.  So the first array ends at the projected keys of the whole key
  table and the second at the value table itself.
-/
import proofs.«110937_j71992241815552_2_alg».proof.Proof.KI.KeysData
import proofs.«110937_j71992241815552_2_alg».proof.Proof.KI.KeysPay
import proofs.«110937_j71992241815552_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KeysValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Where each window's block sits -/

/-- The block indices at point `t`, decided over the 40 points: the key, value and two output windows are at row
    block `t`; the weights and the bias are whole arrays. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `r` of block `t` is a row of the table. -/
theorem row_lt (t : Fin cfg0.N) (r : Fin 800) : 800 * t.val + r.val < 32000 := by
  have ht := t.isLt
  have hN : cfg0.N = 40 := N_0
  have hr := r.isLt
  omega

/-- The key block at point `t` is rows `800 t … 800 t + 799` of the key table. -/
theorem keys_blk (c : Dev nD) (t : Fin cfg0.N) (r : Fin 800) (d : Fin 1024) :
    Keys.blk (F := Ideal) V c 0 t (ix2 r d) = V c main_arg2 (ix2 ⟨800 * t.val + r.val, row_lt t r⟩ d) := by
  obtain ⟨e0, e1, -⟩ := idx_facts t
  unfold Keys.blk
  rw [View.read_apply]
  show V c main_arg2 _ = V c main_arg2 _
  refine congrArg (V c main_arg2) (funext fun a => Fin.ext ?_)
  match a with
  | ⟨0, _⟩ => show win0_0.index t (0 : Fin 2) * 800 + 1 * r.val = 800 * t.val + r.val; rw [e0]; omega
  | ⟨1, _⟩ => show win0_0.index t (1 : Fin 2) * 1024 + 1 * d.val = d.val; rw [e1]; omega

/-- The value block at point `t` is the same rows of the value table. -/
theorem vals_blk (c : Dev nD) (t : Fin cfg0.N) (r : Fin 800) (k : Fin 1024) :
    Keys.blk (F := Ideal) V c 1 t (ix2 r k) = V c main_arg3 (ix2 ⟨800 * t.val + r.val, row_lt t r⟩ k) := by
  obtain ⟨-, -, e0, e1, -⟩ := idx_facts t
  unfold Keys.blk
  rw [View.read_apply]
  show V c main_arg3 _ = V c main_arg3 _
  refine congrArg (V c main_arg3) (funext fun a => Fin.ext ?_)
  match a with
  | ⟨0, _⟩ => show win0_1.index t (0 : Fin 2) * 800 + 1 * r.val = 800 * t.val + r.val; rw [e0]; omega
  | ⟨1, _⟩ => show win0_1.index t (1 : Fin 2) * 1024 + 1 * k.val = k.val; rw [e1]; omega

/-- The weight block at every point is the whole transposed weight matrix. -/
theorem wt_blk (c : Dev nD) (t : Fin cfg0.N) (d k : Fin 1024) :
    Keys.blk (F := Ideal) V c 2 t (ix2 d k) = V c main_v15 (ix2 d k) := by
  obtain ⟨-, -, -, -, e0, e1, -⟩ := idx_facts t
  unfold Keys.blk
  rw [View.read_apply]
  show V c main_v15 _ = V c main_v15 _
  refine congrArg (V c main_v15) (funext fun a => Fin.ext ?_)
  match a with
  | ⟨0, _⟩ => show win0_2.index t (0 : Fin 2) * 1024 + 1 * d.val = d.val; rw [e0]; omega
  | ⟨1, _⟩ => show win0_2.index t (1 : Fin 2) * 1024 + 1 * k.val = k.val; rw [e1]; omega

/-- The bias block at every point is the whole bias. -/
theorem bias_blk (c : Dev nD) (t : Fin cfg0.N) (k : Fin 1024) :
    Keys.blk (F := Ideal) V c 3 t (ix1 k) = V c main_arg5 (ix1 k) := by
  obtain ⟨-, -, -, -, -, -, e0, -⟩ := idx_facts t
  unfold Keys.blk
  rw [View.read_apply]
  show V c main_arg5 _ = V c main_arg5 _
  refine congrArg (V c main_arg5) (funext fun a => Fin.ext ?_)
  match a with
  | ⟨0, _⟩ => show win0_3.index t (0 : Fin 1) * 1024 + 1 * k.val = k.val; rw [e0]; omega

/-- Entry `(r, k)` of the first output's block at point `t` sits in the array at row `800 t + r`, column `k`. -/
theorem out4_emb (t : Fin cfg0.N) (r : Fin 800) (k : Fin 1024) :
    ((cfg0.win 4).blk t).view.emb (ix2 r k) = ix2 ⟨800 * t.val + r.val, row_lt t r⟩ k := by
  obtain ⟨-, -, -, -, -, -, -, e0, e1, -⟩ := idx_facts t
  refine funext fun a => Fin.ext ?_
  match a with
  | ⟨0, _⟩ => show win0_4.index t (0 : Fin 2) * 800 + 1 * r.val = 800 * t.val + r.val; rw [e0]; omega
  | ⟨1, _⟩ => show win0_4.index t (1 : Fin 2) * 1024 + 1 * k.val = k.val; rw [e1]; omega

/-- The same for the second output's block. -/
theorem out5_emb (t : Fin cfg0.N) (r : Fin 800) (k : Fin 1024) :
    ((cfg0.win 5).blk t).view.emb (ix2 r k) = ix2 ⟨800 * t.val + r.val, row_lt t r⟩ k := by
  obtain ⟨-, -, -, -, -, -, -, -, -, e0, e1⟩ := idx_facts t
  refine funext fun a => Fin.ext ?_
  match a with
  | ⟨0, _⟩ => show win0_5.index t (0 : Fin 2) * 800 + 1 * r.val = 800 * t.val + r.val; rw [e0]; omega
  | ⟨1, _⟩ => show win0_5.index t (1 : Fin 2) * 1024 + 1 * k.val = k.val; rw [e1]; omega

/-! ## What each point writes back -/

/-- The projected keys at row `i`, column `k`. -/
theorem projT_apply (key : Spec.Mat 32000 1024) (wt : Spec.Mat 1024 1024) (b : Spec.Col 1024) (i : Fin 32000) (k : Fin 1024) :
    Spec.projT key wt b (ix2 i k) = (∑ d : Fin 1024, key (ix2 i d) * wt (ix2 d k)) + b (ix1 k) := rfl

/-- Point `t` writes back block `t` of the projected keys of the whole table. -/
theorem flushed4_eq (c : Dev nD) (t : Fin cfg0.N) :
    (Keys.dat (F := Ideal) V c).flushed 4 t
      = ((cfg0.win 4).blk t).view.read (Elt Ideal) (Spec.projT (V c main_arg2) (V c main_v15) (V c main_arg5)) := by
  show (cfg0.win 4).cut (grid0.coords t) ((Keys.dat (F := Ideal) V c).after 4 t) = _
  rw [Keys.after_4]
  funext y
  obtain ⟨r, k, rfl⟩ : ∃ (r : Fin 800) (k : Fin 1024), y = ix2 r k := ⟨y 0, y 1, eq_ix2 y⟩
  rw [View.read_apply, out4_emb]
  show k0_pay1 (Keys.blk (F := Ideal) V c 0 t) (Keys.blk (F := Ideal) V c 2 t) (Keys.blk (F := Ideal) V c 3 t) (ix2 r k)
    = Spec.projT (V c main_arg2) (V c main_v15) (V c main_arg5) (ix2 ⟨800 * t.val + r.val, row_lt t r⟩ k)
  rw [projT_apply, pay1_apply]
  refine congrArg₂ (· + ·) (Finset.sum_congr rfl fun d _ => ?_) (bias_blk V c t k)
  rw [keys_blk, wt_blk]

/-- Point `t` writes back block `t` of the value table. -/
theorem flushed5_eq (c : Dev nD) (t : Fin cfg0.N) :
    (Keys.dat (F := Ideal) V c).flushed 5 t = ((cfg0.win 5).blk t).view.read (Elt Ideal) (V c main_arg3) := by
  show (cfg0.win 5).cut (grid0.coords t) ((Keys.dat (F := Ideal) V c).after 5 t) = _
  rw [Keys.after_5]
  funext y
  obtain ⟨r, k, rfl⟩ : ∃ (r : Fin 800) (k : Fin 1024), y = ix2 r k := ⟨y 0, y 1, eq_ix2 y⟩
  rw [View.read_apply, out5_emb]
  show k0_pay2 (Keys.blk (F := Ideal) V c 1 t) (ix2 r k) = V c main_arg3 (ix2 ⟨800 * t.val + r.val, row_lt t r⟩ k)
  rw [pay2_apply, vals_blk]

/-! ## The blocks tile the rows -/

/-- An index of the first output array is in point `t`'s block iff each coordinate is in the block's range. -/
theorem mem_blk4 (t : Fin cfg0.N) (i : S32000x1024.Idx) :
    i ∈ ((cfg0.win 4).blk t).view.set
      ↔ ∀ a : Fin 2, win0_4.index t a * S800x1024.size a ≤ (i a).val ∧ (i a).val < win0_4.index t a * S800x1024.size a + S800x1024.size a := by
  show i ∈ ((View.whole main_v17_0).slice (win0_4.rect t)).set ↔ _
  rw [View.set_slice_whole, Rect.mem_set_unit]
  exact Iff.rfl

theorem mem_blk5 (t : Fin cfg0.N) (i : S32000x1024.Idx) :
    i ∈ ((cfg0.win 5).blk t).view.set
      ↔ ∀ a : Fin 2, win0_5.index t a * S800x1024.size a ≤ (i a).val ∧ (i a).val < win0_5.index t a * S800x1024.size a + S800x1024.size a := by
  show i ∈ ((View.whole main_v17_1).slice (win0_5.rect t)).set ↔ _
  rw [View.set_slice_whole, Rect.mem_set_unit]
  exact Iff.rfl

/-- Row `i` is in the block of point `i / 800`. -/
theorem blk_of_row (i : S32000x1024.Idx) : (i 0).val / 800 < cfg0.N := by
  have hi : (i 0).val < 32000 := (i 0).isLt
  have hN : cfg0.N = 40 := N_0
  omega

theorem cover4 (i : S32000x1024.Idx) :
    ∃ t : Fin cfg0.N, (cfg0.win 4).flush t = true ∧ i ∈ ((cfg0.win 4).blk t).view.set := by
  have hi0 : (i 0).val < 32000 := (i 0).isLt
  have hi1 : (i 1).val < 1024 := (i 1).isLt
  refine ⟨⟨(i 0).val / 800, blk_of_row i⟩, flush0_4 _, ?_⟩
  obtain ⟨-, -, -, -, -, -, -, e0, e1, -⟩ := idx_facts ⟨(i 0).val / 800, blk_of_row i⟩
  rw [mem_blk4]
  intro a
  match a with
  | ⟨0, _⟩ =>
    show win0_4.index ⟨(i 0).val / 800, blk_of_row i⟩ (0 : Fin 2) * 800 ≤ (i 0).val ∧ (i 0).val < win0_4.index ⟨(i 0).val / 800, blk_of_row i⟩ (0 : Fin 2) * 800 + 800
    rw [e0]; show (i 0).val / 800 * 800 ≤ (i 0).val ∧ (i 0).val < (i 0).val / 800 * 800 + 800; omega
  | ⟨1, _⟩ =>
    show win0_4.index ⟨(i 0).val / 800, blk_of_row i⟩ (1 : Fin 2) * 1024 ≤ (i 1).val ∧ (i 1).val < win0_4.index ⟨(i 0).val / 800, blk_of_row i⟩ (1 : Fin 2) * 1024 + 1024
    rw [e1]; omega

theorem cover5 (i : S32000x1024.Idx) :
    ∃ t : Fin cfg0.N, (cfg0.win 5).flush t = true ∧ i ∈ ((cfg0.win 5).blk t).view.set := by
  have hi0 : (i 0).val < 32000 := (i 0).isLt
  have hi1 : (i 1).val < 1024 := (i 1).isLt
  refine ⟨⟨(i 0).val / 800, blk_of_row i⟩, flush0_5 _, ?_⟩
  obtain ⟨-, -, -, -, -, -, -, -, -, e0, e1⟩ := idx_facts ⟨(i 0).val / 800, blk_of_row i⟩
  rw [mem_blk5]
  intro a
  match a with
  | ⟨0, _⟩ =>
    show win0_5.index ⟨(i 0).val / 800, blk_of_row i⟩ (0 : Fin 2) * 800 ≤ (i 0).val ∧ (i 0).val < win0_5.index ⟨(i 0).val / 800, blk_of_row i⟩ (0 : Fin 2) * 800 + 800
    rw [e0]; show (i 0).val / 800 * 800 ≤ (i 0).val ∧ (i 0).val < (i 0).val / 800 * 800 + 800; omega
  | ⟨1, _⟩ =>
    show win0_5.index ⟨(i 0).val / 800, blk_of_row i⟩ (1 : Fin 2) * 1024 ≤ (i 1).val ∧ (i 1).val < win0_5.index ⟨(i 0).val / 800, blk_of_row i⟩ (1 : Fin 2) * 1024 + 1024
    rw [e1]; omega

/-! ## The two arrays after the region -/

/-- The first output array ends at the projected keys of the key table, the transposed weights and the bias as the
    region finds them. -/
theorem keys_final (c : Dev nD) :
    (Keys.dat (F := Ideal) V c).arrAt 4 cfg0.N = Spec.projT (V c main_arg2) (V c main_v15) (V c main_arg5) :=
  (Keys.dat (F := Ideal) V c).arrAt_eq_of_cover 4 (Spec.projT (V c main_arg2) (V c main_v15) (V c main_arg5))
    (fun t _ => flushed4_eq V c t) cover4

/-- The second output array ends at the value table as the region finds it. -/
theorem vals_final (c : Dev nD) :
    (Keys.dat (F := Ideal) V c).arrAt 5 cfg0.N = V c main_arg3 :=
  (Keys.dat (F := Ideal) V c).arrAt_eq_of_cover 5 (V c main_arg3) (fun t _ => flushed5_eq V c t) cover5

end Cert.KernelIdeal.KeysValue

end
-- ==== Proof.KI.AttnPay.lean ====
/-
  Region 1's payloads read at an index, at the ideal instance.

  Each value the body stores is a pure function of the values it loaded.  Entry by entry over the extended reals:
  the weight block is  exp  of the row-by-row products of the query block and the key block; the row sums gain the
  weight block's row sums; the output block gains the weight block times the value block; the final blend is
  ½ · lookup + (½ · sum) · (1 / rowsum); the two resets are zero.  A product into a zero accumulator is the plain
  sum of products, a lane reduction from zero the plain sum, a change of float format the identity.
-/
import proofs.«110937_j71992241815552_2_alg».proof.Proof.Gen.KernelIdeal.Skeleton
import proofs.«110937_j71992241815552_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AttnPay

open Idealize.ShloMosaic Idealize.ShloMosaic.ValueIdx Idealize.SL.Sem
open Cert.KernelIdeal Cert.KernelIdeal.Gen

/-! ## The two resets -/

theorem pay1_apply (i : S1024x1024.Idx) : k1_pay1 (F := Ideal) i = 0 := by
  unfold k1_pay1
  show Ideal.ofBits .f32 0x00000000#32 = 0
  exact Ideal.ofBits_zero_f32

theorem pay2_apply (i : S1024x1.Idx) : k1_pay2 (F := Ideal) i = 0 := by
  unfold k1_pay2
  simp only [shapeCast_self]
  show Ideal.ofBits .f32 0x00000000#32 = 0
  exact Ideal.ofBits_zero_f32

/-! ## The weight block: a product that contracts the last axis of both operands -/

/-- The score product's dimension numbers: rows of the query block against rows of the key block. -/
abbrev dQK : DotDims S1024x1024 S640x1024 S1024x640 := dot_S1024x1024_S640x1024_S1024x640_1_1_0_0_n_n

theorem dQK_lhs_0 (i : S1024x640.Idx) (q : dQK.contr.Idx) : (dQK.lhsIdx i q 0).val = (i 0).val := by
  unfold DotDims.lhsIdx
  rw [dif_neg (show ¬(0 : Fin S1024x1024.rank) ∈ dQK.lhsBatch by decide),
    dif_pos (show (0 : Fin S1024x1024.rank) ∈ dQK.lhsNonContracting by decide)]
  rfl
theorem dQK_lhs_1 (i : S1024x640.Idx) (q : dQK.contr.Idx) : (dQK.lhsIdx i q 1).val = (q ⟨0, by decide⟩).val :=
  dQK.lhsIdx_val_of_single rfl i q
theorem dQK_rhs_0 (i : S1024x640.Idx) (q : dQK.contr.Idx) : (dQK.rhsIdx i q 0).val = (i 1).val := by
  unfold DotDims.rhsIdx
  rw [dif_neg (show ¬(0 : Fin S640x1024.rank) ∈ dQK.rhsBatch by decide),
    dif_pos (show (0 : Fin S640x1024.rank) ∈ dQK.rhsNonContracting by decide)]
  rfl
theorem dQK_rhs_1 (i : S1024x640.Idx) (q : dQK.contr.Idx) : (dQK.rhsIdx i q 1).val = (q ⟨0, by decide⟩).val :=
  dQK.rhsIdx_val_of_single rfl i q

/-- The score product into the zero accumulator, at row `r` and table row `u`:  Σ_k q[r, k] · tk[u, k]. -/
theorem matmulQK_apply (q : FVec Ideal S1024x1024 .bf16) (tk : FVec Ideal S640x1024 .bf16) (r : Fin 1024) (u : Fin 640) :
    FloatOps.matmul dQK none q tk (constant S1024x640 .f32 0x00000000#32) (ix2 r u)
      = ∑ k : Fin 1024, q (ix2 r k) * tk (ix2 u k) := by
  rw [Ideal.matmul_constant_zero_apply, ← Equiv.sum_comp (contrEquiv1 dQK 1024 rfl rfl).symm]
  refine Finset.sum_congr rfl fun k _ => ?_
  have hk := contrEquiv1_symm_val dQK 1024 rfl rfl k
  have el : dQK.lhsIdx (ix2 r u) ((contrEquiv1 dQK 1024 rfl rfl).symm k) = ix2 r k := funext fun a => Fin.ext (by
    match a with
    | ⟨0, _⟩ => exact dQK_lhs_0 _ _
    | ⟨1, _⟩ => exact (dQK_lhs_1 _ _).trans hk)
  have er : dQK.rhsIdx (ix2 r u) ((contrEquiv1 dQK 1024 rfl rfl).symm k) = ix2 u k := funext fun a => Fin.ext (by
    match a with
    | ⟨0, _⟩ => exact dQK_rhs_0 _ _
    | ⟨1, _⟩ => exact (dQK_rhs_1 _ _).trans hk)
  rw [el, er]

theorem pay3_apply (q : Vec Ideal S1024x1024 .bf16) (tk : Vec Ideal S640x1024 .bf16) (r : Fin 1024) (u : Fin 640) :
    k1_pay3 q tk (ix2 r u) = Ideal.exp (∑ k : Fin 1024, q (ix2 r k) * tk (ix2 u k)) := by
  unfold k1_pay3
  simp only [shapeCast_self]
  show Ideal.exp (FloatOps.matmul (F := Ideal) dQK none q tk (constant S1024x640 .f32 0x00000000#32) (ix2 r u)) = _
  rw [matmulQK_apply]

/-! ## The row sums: a lane reduction, a column cast and an add -/

/-- A vector cast to a one-column matrix reads, at `(i, z)`, the operand at `i`, whatever the unit coordinate `z`. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- The lane reduction of a `[1024, 640]` block from the zero accumulator, at row `r`: the sum of the row. -/
theorem laneSum_apply (w : FVec Ideal S1024x640 .f32) (hφ : FKind.Formats .f32)
    (hacc : (0x00000000#32 : BitVec FTy.f32.bits) = FKind.add.neutral .f32 hφ) (r : Fin 1024) :
    multiReduction (F := Ideal) .add [1] S1024 w 0x00000000#32 reduces_S1024x640_S1024 hφ hacc (ix1 r)
      = ∑ u : Fin 640, w (ix2 r u) := by
  refine (Ideal.multiReduction_add_single w 0x00000000#32 reduces_S1024x640_S1024 hφ hacc (ix1 r)).trans ?_
  refine Finset.sum_congr rfl fun u _ => congrArg w (funext fun a => Fin.ext ?_)
  match a with
  | ⟨0, _⟩ => rfl
  | ⟨1, _⟩ => rfl

theorem pay4_apply (q : Vec Ideal S1024x1024 .bf16) (tk : Vec Ideal S640x1024 .bf16) (s : Vec Ideal S1024x1 .f32)
    (r : Fin 1024) (z : Fin 1) :
    k1_pay4 q tk s (ix2 r z) = s (ix2 r z) + ∑ u : Fin 640, k1_pay3 q tk (ix2 r u) := by
  unfold k1_pay4
  simp only [shapeCast_self]
  show s (ix2 r z) + shapeCast S1024x1 (multiReduction (F := Ideal) .add [1] S1024 (k1_pay3 q tk) 0x00000000#32
      reduces_S1024x640_S1024 (.inl rfl) rfl) shapeCasts_S1024_S1024x1 (ix2 r z) = _
  rw [shapeCast_a_a1_apply]
  exact congrArg (s (ix2 r z) + ·) (laneSum_apply (k1_pay3 q tk) _ _ r)

/-! ## The output block: the weight block times the value block -/

/-- The value product's dimension numbers: the weight block's columns against the value block's rows. -/
abbrev dWV : DotDims S1024x640 S640x1024 S1024x1024 := dot_S1024x640_S640x1024_S1024x1024_1_0_0_1_n_n

theorem dWV_lhs_0 (i : S1024x1024.Idx) (q : dWV.contr.Idx) : (dWV.lhsIdx i q 0).val = (i 0).val := by
  unfold DotDims.lhsIdx
  rw [dif_neg (show ¬(0 : Fin S1024x640.rank) ∈ dWV.lhsBatch by decide),
    dif_pos (show (0 : Fin S1024x640.rank) ∈ dWV.lhsNonContracting by decide)]
  rfl
theorem dWV_lhs_1 (i : S1024x1024.Idx) (q : dWV.contr.Idx) : (dWV.lhsIdx i q 1).val = (q ⟨0, by decide⟩).val :=
  dWV.lhsIdx_val_of_single rfl i q
theorem dWV_rhs_0 (i : S1024x1024.Idx) (q : dWV.contr.Idx) : (dWV.rhsIdx i q 0).val = (q ⟨0, by decide⟩).val :=
  dWV.rhsIdx_val_of_single rfl i q
theorem dWV_rhs_1 (i : S1024x1024.Idx) (q : dWV.contr.Idx) : (dWV.rhsIdx i q 1).val = (i 1).val := by
  unfold DotDims.rhsIdx
  rw [dif_neg (show ¬(1 : Fin S640x1024.rank) ∈ dWV.rhsBatch by decide),
    dif_pos (show (1 : Fin S640x1024.rank) ∈ dWV.rhsNonContracting by decide)]
  rfl

/-- The value product into the zero accumulator, at row `r` and column `j`:  Σ_u w[r, u] · vv[u, j]. -/
theorem matmulWV_apply (w : FVec Ideal S1024x640 .bf16) (vv : FVec Ideal S640x1024 .bf16) (r j : Fin 1024) :
    FloatOps.matmul dWV none w vv (constant S1024x1024 .f32 0x00000000#32) (ix2 r j)
      = ∑ u : Fin 640, w (ix2 r u) * vv (ix2 u j) := by
  rw [Ideal.matmul_constant_zero_apply, ← Equiv.sum_comp (contrEquiv1 dWV 640 rfl rfl).symm]
  refine Finset.sum_congr rfl fun k _ => ?_
  have hk := contrEquiv1_symm_val dWV 640 rfl rfl k
  have el : dWV.lhsIdx (ix2 r j) ((contrEquiv1 dWV 640 rfl rfl).symm k) = ix2 r k := funext fun a => Fin.ext (by
    match a with
    | ⟨0, _⟩ => exact dWV_lhs_0 _ _
    | ⟨1, _⟩ => exact (dWV_lhs_1 _ _).trans hk)
  have er : dWV.rhsIdx (ix2 r j) ((contrEquiv1 dWV 640 rfl rfl).symm k) = ix2 k j := funext fun a => Fin.ext (by
    match a with
    | ⟨0, _⟩ => exact (dWV_rhs_0 _ _).trans hk
    | ⟨1, _⟩ => exact dWV_rhs_1 _ _)
  rw [el, er]

theorem pay5_apply (q : Vec Ideal S1024x1024 .bf16) (tk vv : Vec Ideal S640x1024 .bf16) (o : Vec Ideal S1024x1024 .f32)
    (r j : Fin 1024) :
    k1_pay5 q tk vv o (ix2 r j) = o (ix2 r j) + ∑ u : Fin 640, k1_pay3 q tk (ix2 r u) * vv (ix2 u j) := by
  unfold k1_pay5
  simp only [shapeCast_self]
  show o (ix2 r j) + FloatOps.matmul (F := Ideal) dWV none (truncf .bf16 (k1_pay3 q tk) bitsLt_bf16_f32) vv
      (constant S1024x1024 .f32 0x00000000#32) (ix2 r j) = _
  rw [matmulWV_apply]
  rfl

/-! ## The final blend: a reciprocal column broadcast over the columns -/

/-- A one-column matrix broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay6_apply (s : Vec Ideal S1024x1 .f32) (vl o : Vec Ideal S1024x1024 .f32) (r j : Fin 1024) :
    k1_pay6 s vl o (ix2 r j)
      = Spec.half * vl (ix2 r j) + (Spec.half * o (ix2 r j)) * Ideal.div Spec.one (s (ix2 r (0 : Fin 1))) := by
  unfold k1_pay6
  simp only [shapeCast_self]
  show Spec.half * vl (ix2 r j) + (Spec.half * o (ix2 r j))
      * broadcastTo S1024x1024 (divf (F := Ideal) (broadcast S1024x1 (Scalar.ofBits .f32 0x3F800000#32)) s)
          broadcasts_S1024x1_S1024x1024 (ix2 r j) = _
  rw [broadcastTo_a1_ab_apply]
  rfl

end Cert.KernelIdeal.AttnPay

end
-- ==== Proof.LibBlockSum.lean ====
/-
  A sum over the rows of an array cut into equal blocks.

  When T·B rows are cut into T consecutive blocks of B rows, row t·B + q is row q of block t, and a sum over all rows is
  the sum over the blocks of each block's own sum. A running total that starts at zero and adds one block's sum at a time
  therefore holds, after the first n blocks, the sum over the rows below n·B, and after all T blocks the sum over every row.
  Stated for any commutative additive monoid.
-/
import Mathlib.Data.Fintype.BigOperators
import Mathlib.Logic.Equiv.Fin.Basic

open scoped BigOperators

namespace Cert.LibBlockSum

variable {M : Type*} [AddCommMonoid M]

/-- Row q of block t lies among the T·B rows. -/
theorem row_lt {T B : Nat} (t : Fin T) (q : Fin B) : t.val * B + q.val < T * B :=
  calc t.val * B + q.val < t.val * B + B := Nat.add_lt_add_left q.isLt _
    _ = (t.val + 1) * B := (Nat.succ_mul _ _).symm
    _ ≤ T * B := Nat.mul_le_mul_right B t.isLt

/-- Row q of block t lies among the N rows when N = T·B. -/
theorem row_lt_of_eq {T B N : Nat} (h : T * B = N) (t : Fin T) (q : Fin B) : t.val * B + q.val < N :=
  h ▸ row_lt t q

/-- A sum over T·B rows is the sum over the T blocks of the sum over each block's B rows. -/
theorem sum_blocks {T B : Nat} (f : Fin (T * B) → M) :
    ∑ r : Fin (T * B), f r = ∑ t : Fin T, ∑ q : Fin B, f ⟨t.val * B + q.val, row_lt t q⟩ := by
  rw [← (finProdFinEquiv (m := T) (n := B)).sum_comp, Fintype.sum_prod_type]
  refine Finset.sum_congr rfl fun t _ => Finset.sum_congr rfl fun q _ => congrArg f (Fin.ext ?_)
  show q.val + B * t.val = t.val * B + q.val
  rw [Nat.mul_comm, Nat.add_comm]

/-- The same with the number of rows given as a literal N = T·B. -/
theorem sum_blocks_of_eq {T B N : Nat} (h : T * B = N) (f : Fin N → M) :
    ∑ r : Fin N, f r = ∑ t : Fin T, ∑ q : Fin B, f ⟨t.val * B + q.val, row_lt_of_eq h t q⟩ := by
  subst h
  exact sum_blocks f

/-- The total of the first n of T block values (a block past the last counts as zero). -/
def upTo {T : Nat} (g : Fin T → M) (n : Nat) : M :=
  ∑ k ∈ Finset.range n, if h : k < T then g ⟨k, h⟩ else 0

/-- Before any block the total is zero. -/
theorem upTo_zero {T : Nat} (g : Fin T → M) : upTo g 0 = 0 := Finset.sum_range_zero _

/-- Adding block n to the total of the first n blocks gives the total of the first n + 1. -/
theorem upTo_succ {T : Nat} (g : Fin T → M) (n : Nat) (hn : n < T) : upTo g (n + 1) = upTo g n + g ⟨n, hn⟩ := by
  unfold upTo
  rw [Finset.sum_range_succ, dif_pos hn]

/-- The first block alone. -/
theorem upTo_one {T : Nat} (g : Fin T → M) (h0 : 0 < T) : upTo g 1 = g ⟨0, h0⟩ := by
  rw [upTo_succ g 0 h0, upTo_zero, zero_add]

/-- After all T blocks the total is the sum over the blocks. -/
theorem upTo_all {T : Nat} (g : Fin T → M) : upTo g T = ∑ t : Fin T, g t := by
  unfold upTo
  rw [Finset.sum_fin_eq_sum_range]

/-- After all T blocks of B rows the running total of the blocks' sums is the sum over all N = T·B rows. -/
theorem upTo_blocks {T B N : Nat} (h : T * B = N) (f : Fin N → M) :
    upTo (fun t : Fin T => ∑ q : Fin B, f ⟨t.val * B + q.val, row_lt_of_eq h t q⟩) T = ∑ r : Fin N, f r := by
  rw [upTo_all, sum_blocks_of_eq h f]

end Cert.LibBlockSum
-- ==== Proof.KI.AttnAcc.lean ====
/-
  Region 1's carried pair as running totals, at the ideal instance.

  Point `t` of the grid is row block `t / 50` and table block `t % 50`.  Read at an index, the point's query block is
  rows 1024·(t/50) … of the query array, its key and value blocks are rows 640·(t%50) … of the projected keys and of the
  values, its lookup block rows 1024·(t/50) … of the lookup array.  Hence, for a query row, after table block `b` the
  scratch column holds the total over the first b + 1 table blocks of each block's sum of weights, the output block
  the same total of weights times values, and at the last table block (b = 49) the output block is the blend
  ½ · lookup + (½ · Σ weight · value) · (1 / Σ weight)  over all 32000 table rows: the kernel's whole-array function.
-/
import proofs.«110937_j71992241815552_2_alg».proof.Proof.KI.AttnData
import proofs.«110937_j71992241815552_2_alg».proof.Proof.KI.AttnPay
import proofs.«110937_j71992241815552_2_alg».proof.Proof.LibBlockSum
import proofs.«110937_j71992241815552_2_alg».proof.Proof.Spec
import Idealize.ShloMosaic.Lib.ValueIdx
import Idealize.ShloMosaic.Lib.Pipeline.Value

set_option maxRecDepth 16384

noncomputable section

namespace Cert.KernelIdeal.AttnAcc

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open Cert.LibBlockSum (upTo)

variable (V : (c : Dev nD) → (b : Ref sig .tc) → Buf (Elt Ideal) ((c : Thread nD τ).loc b))

/-! ## The four input blocks read at an index -/

/-- The block indices of the four input windows, decided over the grid: windows 0 and 3 sit at row block `t / 50`,
    windows 1 and 2 at table block `t % 50`, all at column block 0. -/
theorem idx_facts : ∀ t : Fin cfg1.N,
    (win1_0.index t (0 : Fin 2) = t.val / 50 ∧ win1_0.index t (1 : Fin 2) = 0)
    ∧ (win1_1.index t (0 : Fin 2) = t.val % 50 ∧ win1_1.index t (1 : Fin 2) = 0)
    ∧ (win1_2.index t (0 : Fin 2) = t.val % 50 ∧ win1_2.index t (1 : Fin 2) = 0)
    ∧ (win1_3.index t (0 : Fin 2) = t.val / 50 ∧ win1_3.index t (1 : Fin 2) = 0) :=
  (by decide +kernel : ∀ t : Fin grid1.N,
    (win1_0.index t (0 : Fin 2) = t.val / 50 ∧ win1_0.index t (1 : Fin 2) = 0)
    ∧ (win1_1.index t (0 : Fin 2) = t.val % 50 ∧ win1_1.index t (1 : Fin 2) = 0)
    ∧ (win1_2.index t (0 : Fin 2) = t.val % 50 ∧ win1_2.index t (1 : Fin 2) = 0)
    ∧ (win1_3.index t (0 : Fin 2) = t.val / 50 ∧ win1_3.index t (1 : Fin 2) = 0))

/-- Row `r` of point `t`'s query block is row 1024·(t/50) + r of the query array. -/
theorem blk0_apply (c : Dev nD) (t : Fin cfg1.N) (r k : Fin 1024) (row : Fin 4096)
    (hrow : row.val = 1024 * (t.val / 50) + r.val) :
    Attn.blk V c 0 t (ix2 r k) = V c main_v16 (ix2 row k) := by
  show V c main_v16 (((cfg1.win 0).blk t).view.emb (ix2 r k)) = _
  refine congrArg (V c main_v16) ?_
  funext a; apply Fin.ext
  obtain ⟨⟨e0, e1⟩, -⟩ := idx_facts t
  match a with
  | ⟨0, _⟩ => show win1_0.index t (0 : Fin 2) * 1024 + 1 * r.val = row.val; omega
  | ⟨1, _⟩ => show win1_0.index t (1 : Fin 2) * 1024 + 1 * k.val = k.val; omega

/-- Row `u` of point `t`'s key block is row 640·(t%50) + u of the projected keys. -/
theorem blk1_apply (c : Dev nD) (t : Fin cfg1.N) (u : Fin 640) (k : Fin 1024) (v : Fin 32000)
    (hv : v.val = 640 * (t.val % 50) + u.val) :
    Attn.blk V c 1 t (ix2 u k) = V c main_v17_0 (ix2 v k) := by
  show V c main_v17_0 (((cfg1.win 1).blk t).view.emb (ix2 u k)) = _
  refine congrArg (V c main_v17_0) ?_
  funext a; apply Fin.ext
  obtain ⟨-, ⟨e0, e1⟩, -⟩ := idx_facts t
  match a with
  | ⟨0, _⟩ => show win1_1.index t (0 : Fin 2) * 640 + 1 * u.val = v.val; omega
  | ⟨1, _⟩ => show win1_1.index t (1 : Fin 2) * 1024 + 1 * k.val = k.val; omega

/-- Row `u` of point `t`'s value block is row 640·(t%50) + u of the values. -/
theorem blk2_apply (c : Dev nD) (t : Fin cfg1.N) (u : Fin 640) (j : Fin 1024) (v : Fin 32000)
    (hv : v.val = 640 * (t.val % 50) + u.val) :
    Attn.blk V c 2 t (ix2 u j) = V c main_v17_1 (ix2 v j) := by
  show V c main_v17_1 (((cfg1.win 2).blk t).view.emb (ix2 u j)) = _
  refine congrArg (V c main_v17_1) ?_
  funext a; apply Fin.ext
  obtain ⟨-, -, ⟨e0, e1⟩, -⟩ := idx_facts t
  match a with
  | ⟨0, _⟩ => show win1_2.index t (0 : Fin 2) * 640 + 1 * u.val = v.val; omega
  | ⟨1, _⟩ => show win1_2.index t (1 : Fin 2) * 1024 + 1 * j.val = j.val; omega

/-- Row `r` of point `t`'s lookup block is row 1024·(t/50) + r of the lookup array. -/
theorem blk3_apply (c : Dev nD) (t : Fin cfg1.N) (r j : Fin 1024) (row : Fin 4096)
    (hrow : row.val = 1024 * (t.val / 50) + r.val) :
    Attn.blk V c 3 t (ix2 r j) = V c main_v13 (ix2 row j) := by
  show V c main_v13 (((cfg1.win 3).blk t).view.emb (ix2 r j)) = _
  refine congrArg (V c main_v13) ?_
  funext a; apply Fin.ext
  obtain ⟨-, -, -, ⟨e0, e1⟩⟩ := idx_facts t
  match a with
  | ⟨0, _⟩ => show win1_3.index t (0 : Fin 2) * 1024 + 1 * r.val = row.val; omega
  | ⟨1, _⟩ => show win1_3.index t (1 : Fin 2) * 1024 + 1 * j.val = j.val; omega

/-! ## The totals over the table blocks -/

theorem h50 : 50 * 640 = 32000 := by norm_num

section Totals
variable (Q : Spec.Mat 4096 1024) (P VAL : Spec.Mat 32000 1024) (VL : Spec.Mat 4096 1024)

/-- Table block `b`'s sum of the weights of query row `row`. -/
def wS (row : Fin 4096) : Fin 50 → EReal := fun b =>
  ∑ u : Fin 640, Spec.wgt Q P row ⟨b.val * 640 + u.val, LibBlockSum.row_lt_of_eq h50 b u⟩

/-- Table block `b`'s sum of weight times value, for query row `row` and output column `j`. -/
def vS (row : Fin 4096) (j : Fin 1024) : Fin 50 → EReal := fun b =>
  ∑ u : Fin 640, Spec.wgt Q P row ⟨b.val * 640 + u.val, LibBlockSum.row_lt_of_eq h50 b u⟩
    * VAL (ix2 ⟨b.val * 640 + u.val, LibBlockSum.row_lt_of_eq h50 b u⟩ j)

/-- The total over all 50 table blocks is the row sum over the 32000 table rows. -/
theorem wS_all (row : Fin 4096) : upTo (wS Q P row) 50 = Spec.rowSum Q P row :=
  LibBlockSum.upTo_blocks h50 (fun v => Spec.wgt Q P row v)

/-- The total over all 50 table blocks is the weighted value sum over the 32000 table rows. -/
theorem vS_all (row : Fin 4096) (j : Fin 1024) : upTo (vS Q P VAL row j) 50 = Spec.valSum Q P VAL row j :=
  LibBlockSum.upTo_blocks h50 (fun v => Spec.wgt Q P row v * VAL (ix2 v j))

end Totals

/-! ## One point's update, read at an index -/

/-- An entry of the point's weight block is the weight of the query row against the table row. -/
theorem pay3_blk (c : Dev nD) (t : Fin cfg1.N) (r : Fin 1024) (u : Fin 640) (row : Fin 4096)
    (hrow : row.val = 1024 * (t.val / 50) + r.val) (v : Fin 32000) (hv : v.val = 640 * (t.val % 50) + u.val) :
    k1_pay3 (Attn.blk V c 0 t) (Attn.blk V c 1 t) (ix2 r u) = Spec.wgt (V c main_v16) (V c main_v17_0) row v := by
  refine (AttnPay.pay3_apply (Attn.blk V c 0 t) (Attn.blk V c 1 t) r u).trans ?_
  unfold Spec.wgt Spec.score
  refine congrArg Ideal.exp (Finset.sum_congr rfl fun k _ => ?_)
  rw [blk0_apply V c t r k row hrow, blk1_apply V c t u k v hv]

theorem mod50_lt (t : Fin cfg1.N) : t.val % 50 < 50 := Nat.mod_lt _ (by norm_num)

/-- The row sums the point leaves: what it found plus this table block's sum of weights. -/
theorem pay4_blk (c : Dev nD) (t : Fin cfg1.N) (s : Vec Ideal S1024x1 .f32) (r : Fin 1024) (row : Fin 4096)
    (hrow : row.val = 1024 * (t.val / 50) + r.val) :
    k1_pay4 (Attn.blk V c 0 t) (Attn.blk V c 1 t) s (ix2 r (0 : Fin 1))
      = s (ix2 r (0 : Fin 1)) + wS (V c main_v16) (V c main_v17_0) row ⟨t.val % 50, mod50_lt t⟩ := by
  refine (AttnPay.pay4_apply (Attn.blk V c 0 t) (Attn.blk V c 1 t) s r 0).trans ?_
  refine congrArg (fun x => s (ix2 r (0 : Fin 1)) + x) ?_
  unfold wS
  refine Finset.sum_congr rfl fun u _ => ?_
  exact pay3_blk V c t r u row hrow _ (by show t.val % 50 * 640 + u.val = _; omega)

/-- The output block the point leaves before any blend: what it found plus this table block's sum of weight times value. -/
theorem pay5_blk (c : Dev nD) (t : Fin cfg1.N) (o : Vec Ideal S1024x1024 .f32) (r j : Fin 1024) (row : Fin 4096)
    (hrow : row.val = 1024 * (t.val / 50) + r.val) :
    k1_pay5 (Attn.blk V c 0 t) (Attn.blk V c 1 t) (Attn.blk V c 2 t) o (ix2 r j)
      = o (ix2 r j) + vS (V c main_v16) (V c main_v17_0) (V c main_v17_1) row j ⟨t.val % 50, mod50_lt t⟩ := by
  refine (AttnPay.pay5_apply (Attn.blk V c 0 t) (Attn.blk V c 1 t) (Attn.blk V c 2 t) o r j).trans ?_
  refine congrArg (fun x => o (ix2 r j) + x) ?_
  unfold vS
  refine Finset.sum_congr rfl fun u _ => ?_
  rw [pay3_blk V c t r u row hrow ⟨t.val % 50 * 640 + u.val, LibBlockSum.row_lt_of_eq h50 ⟨t.val % 50, mod50_lt t⟩ u⟩
        (by show t.val % 50 * 640 + u.val = _; omega),
      blk2_apply V c t u j ⟨t.val % 50 * 640 + u.val, LibBlockSum.row_lt_of_eq h50 ⟨t.val % 50, mod50_lt t⟩ u⟩
        (by show t.val % 50 * 640 + u.val = _; omega)]

/-- The two halves of one point's update. -/
theorem stepAt_snd (c : Dev nD) (t : Fin cfg1.N) (p : Vec Ideal S1024x1024 .f32 × Vec Ideal S1024x1 .f32) :
    (Attn.stepAt V c t p).2 = k1_pay4 (Attn.blk V c 0 t) (Attn.blk V c 1 t) p.2 := rfl

theorem stepAt_fst_mid (c : Dev nD) (t : Fin cfg1.N) (p : Vec Ideal S1024x1024 .f32 × Vec Ideal S1024x1 .f32)
    (h : ¬ t.val % 50 = 49) :
    (Attn.stepAt V c t p).1 = k1_pay5 (Attn.blk V c 0 t) (Attn.blk V c 1 t) (Attn.blk V c 2 t) p.1 := by
  unfold Attn.stepAt Attn.step
  rw [decide_eq_false h]
  rfl

theorem stepAt_fst_last (c : Dev nD) (t : Fin cfg1.N) (p : Vec Ideal S1024x1024 .f32 × Vec Ideal S1024x1 .f32)
    (h : t.val % 50 = 49) :
    (Attn.stepAt V c t p).1 = k1_pay6 (k1_pay4 (Attn.blk V c 0 t) (Attn.blk V c 1 t) p.2) (Attn.blk V c 3 t)
      (k1_pay5 (Attn.blk V c 0 t) (Attn.blk V c 1 t) (Attn.blk V c 2 t) p.1) := by
  unfold Attn.stepAt Attn.step
  rw [decide_eq_true h]
  rfl

/-! ## The invariant -/

/-- One point's update carries both running totals from `t % 50` table blocks to `t % 50 + 1`, and at the last
    table block leaves the kernel's whole-array function in the output block. -/
theorem step_inv (c : Dev nD) (t : Fin cfg1.N) (p : Vec Ideal S1024x1024 .f32 × Vec Ideal S1024x1 .f32)
    (r : Fin 1024) (row : Fin 4096) (hrow : row.val = 1024 * (t.val / 50) + r.val)
    (h2 : p.2 (ix2 r (0 : Fin 1)) = upTo (wS (V c main_v16) (V c main_v17_0) row) (t.val % 50))
    (h1 : ∀ j : Fin 1024,
      p.1 (ix2 r j) = upTo (vS (V c main_v16) (V c main_v17_0) (V c main_v17_1) row j) (t.val % 50)) :
    (Attn.stepAt V c t p).2 (ix2 r (0 : Fin 1)) = upTo (wS (V c main_v16) (V c main_v17_0) row) (t.val % 50 + 1)
    ∧ ∀ j : Fin 1024,
        (¬ t.val % 50 = 49 → (Attn.stepAt V c t p).1 (ix2 r j)
            = upTo (vS (V c main_v16) (V c main_v17_0) (V c main_v17_1) row j) (t.val % 50 + 1))
        ∧ (t.val % 50 = 49 → (Attn.stepAt V c t p).1 (ix2 r j)
            = Spec.kern (V c main_v16) (V c main_v17_0) (V c main_v17_1) (V c main_v13) (ix2 row j)) := by
  have e4 : k1_pay4 (Attn.blk V c 0 t) (Attn.blk V c 1 t) p.2 (ix2 r (0 : Fin 1))
      = upTo (wS (V c main_v16) (V c main_v17_0) row) (t.val % 50 + 1) := by
    rw [pay4_blk V c t p.2 r row hrow, h2]
    exact (LibBlockSum.upTo_succ _ _ (mod50_lt t)).symm
  have e5 : ∀ j : Fin 1024, k1_pay5 (Attn.blk V c 0 t) (Attn.blk V c 1 t) (Attn.blk V c 2 t) p.1 (ix2 r j)
      = upTo (vS (V c main_v16) (V c main_v17_0) (V c main_v17_1) row j) (t.val % 50 + 1) := fun j => by
    rw [pay5_blk V c t p.1 r j row hrow, h1 j]
    exact (LibBlockSum.upTo_succ _ _ (mod50_lt t)).symm
  refine ⟨?_, fun j => ⟨fun hm => ?_, fun hl => ?_⟩⟩
  · rw [stepAt_snd]; exact e4
  · rw [stepAt_fst_mid V c t p hm]; exact e5 j
  · rw [stepAt_fst_last V c t p hl]
    refine (AttnPay.pay6_apply _ _ _ r j).trans ?_
    rw [e4, e5 j, blk3_apply V c t r j row hrow, hl]
    have e50 : (49 + 1 : ℕ) = 50 := rfl
    rw [e50, wS_all, vS_all]
    rfl

/-- After position `k` (row block `k / 50`, table block `k % 50`), for row `r` of the row block — row `row` of the
    arrays —: the scratch column holds the weights' total over the first `k % 50 + 1` table blocks; the output block
    holds the same total of weight times value, and at the last table block the kernel's whole-array function. -/
theorem acc_inv (c : Dev nD) : ∀ (k : ℕ) (h : k < cfg1.N) (r : Fin 1024) (row : Fin 4096)
    (hrow : row.val = 1024 * (k / 50) + r.val),
    (Attn.accAt V c k h).2 (ix2 r (0 : Fin 1)) = upTo (wS (V c main_v16) (V c main_v17_0) row) (k % 50 + 1)
    ∧ ∀ j : Fin 1024,
        (¬ k % 50 = 49 → (Attn.accAt V c k h).1 (ix2 r j)
            = upTo (vS (V c main_v16) (V c main_v17_0) (V c main_v17_1) row j) (k % 50 + 1))
        ∧ (k % 50 = 49 → (Attn.accAt V c k h).1 (ix2 r j)
            = Spec.kern (V c main_v16) (V c main_v17_0) (V c main_v17_1) (V c main_v13) (ix2 row j)) := by
  intro k
  induction k using Nat.strong_induction_on with
  | _ k ih =>
    intro h r row hrow
    have hN : cfg1.N = 200 := N_1
    by_cases hk0 : k % 50 = 0
    · have e : Attn.accAt V c k h = Attn.stepAt V c ⟨k, h⟩ Attn.start := Attn.accAt_first V c ⟨k, h⟩ hk0
      rw [e]
      refine step_inv V c ⟨k, h⟩ Attn.start r row hrow ?_ ?_
      · show k1_pay2 (ix2 r (0 : Fin 1)) = upTo _ (k % 50)
        rw [hk0, LibBlockSum.upTo_zero]; exact AttnPay.pay2_apply _
      · intro j
        show k1_pay1 (ix2 r j) = upTo _ (k % 50)
        rw [hk0, LibBlockSum.upTo_zero]; exact AttnPay.pay1_apply _
    · have hlt : k - 1 < cfg1.N := by omega
      have e : Attn.accAt V c k h = Attn.stepAt V c ⟨k, h⟩ (Attn.accAt V c (k - 1) hlt) :=
        Attn.accAt_next V c ⟨k, h⟩ hk0
      rw [e]
      obtain ⟨i2, i1⟩ := ih (k - 1) (by omega) hlt r row (by omega)
      have hm : (k - 1) % 50 + 1 = k % 50 := by omega
      have hnl : ¬ (k - 1) % 50 = 49 := by omega
      refine step_inv V c ⟨k, h⟩ _ r row hrow ?_ ?_
      · show _ = upTo _ (k % 50)
        rw [← hm]; exact i2
      · intro j
        show _ = upTo _ (k % 50)
        rw [← hm]; exact (i1 j).1 hnl

end Cert.KernelIdeal.AttnAcc

end
-- ==== Proof.KI.AttnValue.lean ====
/-
  What region 1 leaves in its output array, at the ideal instance.

  Along a row block the carried output block and row sums are running totals over the table blocks seen so far,
  starting from zero; a total over the 50 blocks of 640 rows is the total over all 32000 table rows (sums in a
  commutative monoid may be regrouped).  At the last table block the output block becomes the blend
  ½ · lookup + (½ · sum) · (1 / rowsum), and that is the block written back; the 4 row blocks tile the 4096 rows.
-/
import proofs.«110937_j71992241815552_2_alg».proof.Proof.KI.AttnData
import proofs.«110937_j71992241815552_2_alg».proof.Proof.KI.AttnPay
import proofs.«110937_j71992241815552_2_alg».proof.Proof.KI.AttnAcc
import proofs.«110937_j71992241815552_2_alg».proof.Proof.LibBlockSum
import proofs.«110937_j71992241815552_2_alg».proof.Proof.Spec
import Idealize.ShloMosaic.Lib.ValueIdx
import Idealize.ShloMosaic.Lib.Pipeline.Value

set_option maxRecDepth 16384

noncomputable section

namespace Cert.KernelIdeal.AttnValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The output window's block index, decided over the grid: row block `t / 50`, column block 0. -/
theorem idx4 : ∀ t : Fin cfg1.N, win1_4.index t (0 : Fin 2) = t.val / 50 ∧ win1_4.index t (1 : Fin 2) = 0 :=
  (by decide +kernel : ∀ t : Fin grid1.N, win1_4.index t (0 : Fin 2) = t.val / 50 ∧ win1_4.index t (1 : Fin 2) = 0)

/-- At the last table block of a row block the carried output block, entry by entry, is the kernel's whole-array
    function at the entry's place in the output array: row 1024·(t/50) + r, the same column. -/
theorem last_block_apply (c : Dev nD) (t : Fin cfg1.N) (hl : t.val % 50 = 49) (j : S1024x1024.Idx) :
    (Attn.accAt V c t.val t.isLt).1 j
      = Spec.kern (V c main_v16) (V c main_v17_0) (V c main_v17_1) (V c main_v13) (((cfg1.win 4).blk t).view.emb j) := by
  obtain ⟨r, jj, rfl⟩ : ∃ r jj : Fin 1024, j = ix2 r jj := ⟨j 0, j 1, eq_ix2 j⟩
  have hN : cfg1.N = 200 := N_1
  have hrow : 1024 * (t.val / 50) + r.val < 4096 := by have := t.isLt; have := r.isLt; omega
  rw [((AttnAcc.acc_inv V c t.val t.isLt r ⟨1024 * (t.val / 50) + r.val, hrow⟩ rfl).2 jj).2 hl]
  refine congrArg (Spec.kern (V c main_v16) (V c main_v17_0) (V c main_v17_1) (V c main_v13)) ?_
  funext a; apply Fin.ext
  obtain ⟨e0, e1⟩ := idx4 t
  match a with
  | ⟨0, _⟩ => show 1024 * (t.val / 50) + r.val = win1_4.index t (0 : Fin 2) * 1024 + 1 * r.val; omega
  | ⟨1, _⟩ => show jj.val = win1_4.index t (1 : Fin 2) * 1024 + 1 * jj.val; omega

/-- What a point that writes back writes is its block of the kernel's whole-array function. -/
theorem flushed_eq (c : Dev nD) (t : Fin cfg1.N) (hf : (cfg1.win 4).flush t = true) :
    (Attn.dat (F := Ideal) V c).flushed 4 t
      = ((cfg1.win 4).blk t).view.read (Elt Ideal)
          (Spec.kern (V c main_v16) (V c main_v17_0) (V c main_v17_1) (V c main_v13)) := by
  have hl : t.val % 50 = 49 := (flush1_4 t).mp hf
  show (cfg1.win 4).cut (grid1.coords t) ((Attn.dat (F := Ideal) V c).after 4 t) = _
  rw [Attn.after_4]
  funext j
  exact last_block_apply V c t hl j

/-- An index of the output array is in point `t`'s block iff each coordinate is in the block's range on its axis. -/
theorem mem_blk (t : Fin cfg1.N) (i : S4096x1024.Idx) :
    i ∈ ((cfg1.win 4).blk t).view.set ↔ ∀ a : Fin 2, win1_4.index t a * S1024x1024.size a ≤ (i a).val
      ∧ (i a).val < win1_4.index t a * S1024x1024.size a + S1024x1024.size a := by
  show i ∈ ((View.whole main_v18).slice (win1_4.rect t)).set ↔ _
  rw [View.set_slice_whole, Rect.mem_set_unit]
  exact Iff.rfl

/-- Every index of the output array lies in the block of a point that writes back: row `i` in that of the last
    table block of row block `i / 1024`. -/
theorem cover (i : S4096x1024.Idx) :
    ∃ t : Fin cfg1.N, (cfg1.win 4).flush t = true ∧ i ∈ ((cfg1.win 4).blk t).view.set := by
  have hN : cfg1.N = 200 := N_1
  have hi0 : (i 0).val < 4096 := idx2_lt0 i
  have hi1 : (i 1).val < 1024 := idx2_lt1 i
  have hlt : 50 * ((i 0).val / 1024) + 49 < cfg1.N := by omega
  obtain ⟨e0, e1⟩ := idx4 ⟨50 * ((i 0).val / 1024) + 49, hlt⟩
  have e0' : win1_4.index ⟨50 * ((i 0).val / 1024) + 49, hlt⟩ (0 : Fin 2) = (50 * ((i 0).val / 1024) + 49) / 50 := e0
  refine ⟨⟨50 * ((i 0).val / 1024) + 49, hlt⟩, (flush1_4 _).mpr ?_, ?_⟩
  · show (50 * ((i 0).val / 1024) + 49) % 50 = 49
    omega
  · rw [mem_blk]
    intro a
    match a with
    | ⟨0, _⟩ =>
      show win1_4.index ⟨50 * ((i 0).val / 1024) + 49, hlt⟩ (0 : Fin 2) * 1024 ≤ (i 0).val
        ∧ (i 0).val < win1_4.index ⟨50 * ((i 0).val / 1024) + 49, hlt⟩ (0 : Fin 2) * 1024 + 1024
      omega
    | ⟨1, _⟩ =>
      show win1_4.index ⟨50 * ((i 0).val / 1024) + 49, hlt⟩ (1 : Fin 2) * 1024 ≤ (i 1).val
        ∧ (i 1).val < win1_4.index ⟨50 * ((i 0).val / 1024) + 49, hlt⟩ (1 : Fin 2) * 1024 + 1024
      omega

/-- The output array ends at the kernel's whole-array function of the query rows, the projected keys, the value rows
    and the lookup rows as the region finds them. -/
theorem out_final (c : Dev nD) :
    (Attn.dat (F := Ideal) V c).arrAt 4 cfg1.N
      = Spec.kern (V c main_v16) (V c main_v17_0) (V c main_v17_1) (V c main_v13) :=
  (Attn.dat (F := Ideal) V c).arrAt_eq_of_cover 4
    (Spec.kern (V c main_v16) (V c main_v17_0) (V c main_v17_1) (V c main_v13))
    (flushed_eq V c) (cover)

end Cert.KernelIdeal.AttnValue

end
-- ==== Proof.KI.HostStages.lean ====
/-
  What the two kernel regions find in the buffers the host operations prepare, at the ideal instance.

  Before the first region the program transposes the weight matrix and gathers the query rows and the lookup rows
  by the (wrapped) index array, exactly as the reference does; narrowing to a shorter float format is the identity
  on extended reals.  So the transposed weights, the query rows and the lookup rows the regions read are the
  reference's own stages of the same arguments, and the three float tables the first region stages are the
  arguments themselves.
-/
import proofs.«110937_j71992241815552_2_alg».proof.Proof.Gen.KernelIdeal.Launch
import proofs.«110937_j71992241815552_2_alg».proof.Proof.Gen.ReferenceIdeal.Read
import Idealize.ShloMosaic.Lib.StableHlo.Run

set_option maxRecDepth 16384

noncomputable section

namespace Cert.KernelIdeal.HostStages

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- Core `c`'s buffers after the host operations. -/
abbrev entry : Valuation τ sig (Elt Ideal) := StableHlo.after hostOps0 (fun b => m (c, b))

theorem wt_eq :
    (entry m c (Proc.devRef .tc main_v15) : S1024x1024.Idx → EReal)
      = Cert.ReferenceIdeal.Read.val_main_v7 (F := Ideal) (m ((c : Thread nD τ).loc main_arg4)) := by
  dsimp only [entry, hostOps0]; after_results; rfl

theorem query_eq :
    (entry m c (Proc.devRef .tc main_v16) : S4096x1024.Idx → EReal)
      = Cert.ReferenceIdeal.Read.val_main_v6 (F := Ideal) (m ((c : Thread nD τ).loc main_arg0)) (m ((c : Thread nD τ).loc main_arg1)) := by
  dsimp only [entry, hostOps0]; after_results; rfl

theorem lookup_eq :
    (entry m c (Proc.devRef .tc main_v13) : S4096x1024.Idx → EReal)
      = Cert.ReferenceIdeal.Read.val_main_v28 (F := Ideal) (m ((c : Thread nD τ).loc main_arg0)) (m ((c : Thread nD τ).loc main_arg3)) := by
  dsimp only [entry, hostOps0]; after_results; rfl

theorem key_eq : entry m c (Proc.devRef .tc main_arg2) = m ((c : Thread nD τ).loc main_arg2) := by
  dsimp only [entry, hostOps0]; after_results

theorem val_eq : entry m c (Proc.devRef .tc main_arg3) = m ((c : Thread nD τ).loc main_arg3) := by
  dsimp only [entry, hostOps0]; after_results

theorem bias_eq : entry m c (Proc.devRef .tc main_arg5) = m ((c : Thread nD τ).loc main_arg5) := by
  dsimp only [entry, hostOps0]; after_results

end Cert.KernelIdeal.HostStages

end
-- ==== Proof.KI.Result.lean ====
/-
  The kernel program's result array, as one function of its arguments, at the ideal instance.

  The second region leaves in the result array its whole-array function of what it finds in its four input
  arrays.  Two of those the first region wrote — the projected keys of the key table, the transposed weights and
  the bias, and the value table itself —, two the host operations prepared — the gathered query rows and lookup
  rows —, and the transposed weights are the host's too.  Put together, the result is the kernel's function
  `Spec.kern` of the gathered queries, the projected keys, the value table and the gathered lookup rows.
-/
import proofs.«110937_j71992241815552_2_alg».proof.Proof.KI.Whole
import proofs.«110937_j71992241815552_2_alg».proof.Proof.KI.KeysValue
import proofs.«110937_j71992241815552_2_alg».proof.Proof.KI.AttnValue
import proofs.«110937_j71992241815552_2_alg».proof.Proof.KI.HostStages
import proofs.«110937_j71992241815552_2_alg».proof.Proof.Spec

set_option maxRecDepth 16384

noncomputable section

namespace Cert.KernelIdeal.Result

open Idealize.ShloMosaic Idealize.ShloMosaic.TcCoe Idealize.SL.Sem
open Cert.KernelIdeal Cert.KernelIdeal.Gen
open Cert.ReferenceIdeal.Read (val_main_v6 val_main_v7 val_main_v28)

variable (m : (ℓ : Loc nD τ sig) → Buf (Elt Ideal) ℓ) (c : Dev nD)

/-- The kernel's function of the six arguments: `Spec.kern` of the gathered query rows, the projected keys, the value
    table and the gathered lookup rows. -/
def kernOf : Spec.Mat 4096 1024 :=
  Spec.kern (val_main_v6 (F := Ideal) (m ((c : Thread nD τ).loc main_arg0)) (m ((c : Thread nD τ).loc main_arg1)))
    (Spec.projT (m ((c : Thread nD τ).loc main_arg2)) (val_main_v7 (F := Ideal) (m ((c : Thread nD τ).loc main_arg4))) (m ((c : Thread nD τ).loc main_arg5)))
    (m ((c : Thread nD τ).loc main_arg3))
    (val_main_v28 (F := Ideal) (m ((c : Thread nD τ).loc main_arg0)) (m ((c : Thread nD τ).loc main_arg3)))

/-- What the first region finds: the host operations' buffers (the valuation the whole run names `V1`). -/
theorem V1_eq (b : Ref sig .tc) : Whole.V1 m c b = HostStages.entry m c (Proc.devRef .tc b) := rfl

/-- The result array after the run is the kernel's function of the arguments. -/
theorem out_is_kern : Whole.W3 m c (Proc.devRef .tc main_v18) = kernOf m c := by
  rw [Whole.W3_out, AttnValue.out_final (Whole.V2 m) c, Whole.V2_keys, Whole.V2_vals, Whole.V2_query, Whole.V2_lookup,
    KeysValue.keys_final (Whole.V1 m) c, KeysValue.vals_final (Whole.V1 m) c]
  have hq : (Whole.V1 m c main_v16 : S4096x1024.Idx → EReal)
      = val_main_v6 (F := Ideal) (m ((c : Thread nD τ).loc main_arg0)) (m ((c : Thread nD τ).loc main_arg1)) := HostStages.query_eq m c
  have hl : (Whole.V1 m c main_v13 : S4096x1024.Idx → EReal)
      = val_main_v28 (F := Ideal) (m ((c : Thread nD τ).loc main_arg0)) (m ((c : Thread nD τ).loc main_arg3)) := HostStages.lookup_eq m c
  have hw : (Whole.V1 m c main_v15 : S1024x1024.Idx → EReal)
      = val_main_v7 (F := Ideal) (m ((c : Thread nD τ).loc main_arg4)) := HostStages.wt_eq m c
  have hk : Whole.V1 m c main_arg2 = (m ((c : Thread nD τ).loc main_arg2)) := HostStages.key_eq m c
  have hv : Whole.V1 m c main_arg3 = (m ((c : Thread nD τ).loc main_arg3)) := HostStages.val_eq m c
  have hb : Whole.V1 m c main_arg5 = (m ((c : Thread nD τ).loc main_arg5)) := HostStages.bias_eq m c
  rw [hq, hl, hw, hk, hv, hb]
  rfl

end Cert.KernelIdeal.Result

end
-- ==== Proof.Ref.lean ====
/-
  The reference program's result, stage by stage, is the reference's whole-array function.

  Reading the host operations one at a time at an index: the projected keys are the key table times the transposed
  weights plus the broadcast bias; the scores are the gathered queries times the transposed projected keys; each
  weight is  exp(score) / 2 ; the row total starts from zero and adds the weights; the normalised weight is the
  weight over the row total; the result is  ½ · lookup + ½ · (normalised weights times the value table).  The two
  gathers and the transpose of the weights stay as they are printed.
-/
import proofs.«110937_j71992241815552_2_alg».proof.Proof.Gen.ReferenceIdeal.Read
import proofs.«110937_j71992241815552_2_alg».proof.Proof.Spec

set_option maxRecDepth 16384

noncomputable section

namespace Cert.RefValue

open Idealize.ShloMosaic Idealize.ShloMosaic.ValueIdx Idealize.SL.Sem
open Cert.ReferenceIdeal Cert.ReferenceIdeal.Gen Cert.ReferenceIdeal.Read

/-! ## The stages' index maps on indices given by their coordinates

Every layout operation and contraction of the reference reads its operand at an index computed from the result's
index; on an index built from its coordinates each of these is again an index built from coordinates. -/

/-- The key product reads the key table at (row, contracted coordinate) … -/
theorem lidx8 (v : Fin 32000) (k d : Fin 1024) : lidx_main_v8 (ix2 v k) d = ix2 v d :=
  funext fun a => Fin.ext (by match a with | ⟨0, _⟩ => rfl | ⟨1, _⟩ => rfl)
/-- … and the transposed weights at (contracted coordinate, column). -/
theorem ridx8 (v : Fin 32000) (k d : Fin 1024) : ridx_main_v8 (ix2 v k) d = ix2 d k :=
  funext fun a => Fin.ext (by match a with | ⟨0, _⟩ => rfl | ⟨1, _⟩ => rfl)
/-- The bias, broadcast first to one row and then to every row, is read at the column. -/
theorem idx10_9 (v : Fin 32000) (k : Fin 1024) : idx_main_v9 (idx_main_v10 (ix2 v k)) = ix1 k :=
  funext fun a => Fin.ext (by match a with | ⟨0, _⟩ => rfl)
/-- The score product reads the queries at (row, contracted coordinate) … -/
theorem lidx13 (a : Fin 4096) (v : Fin 32000) (k : Fin 1024) : lidx_main_v13 (ix2 a v) k = ix2 a k :=
  funext fun b => Fin.ext (by match b with | ⟨0, _⟩ => rfl | ⟨1, _⟩ => rfl)
/-- … and the transposed projected keys at (contracted coordinate, table row), that is the projected keys at
    (table row, contracted coordinate). -/
theorem ridx13_12 (a : Fin 4096) (v : Fin 32000) (k : Fin 1024) :
    idx_main_v12 (ridx_main_v13 (ix2 a v) k) = ix2 v k :=
  funext fun b => Fin.ext (by match b with | ⟨0, _⟩ => rfl | ⟨1, _⟩ => rfl)
/-- The row total of row `a` adds the entries (a, v). -/
theorem idx17 (a : Fin 4096) (v : Fin 32000) : idx_main_v17 (ix1 a) v = ix2 a v :=
  funext fun b => Fin.ext (by match b with | ⟨0, _⟩ => rfl | ⟨1, _⟩ => rfl)
/-- The row totals, broadcast first to a column and then along every row, are read at the row. -/
theorem idx19_18 (a : Fin 4096) (v : Fin 32000) : idx_main_v18 (idx_main_v19 (ix2 a v)) = ix1 a :=
  funext fun b => Fin.ext (by match b with | ⟨0, _⟩ => rfl)
/-- The value product reads the normalised weights at (row, table row) … -/
theorem lidx21 (a : Fin 4096) (j : Fin 1024) (v : Fin 32000) : lidx_main_v21 (ix2 a j) v = ix2 a v :=
  funext fun b => Fin.ext (by match b with | ⟨0, _⟩ => rfl | ⟨1, _⟩ => rfl)
/-- … and the value table at (table row, column). -/
theorem ridx21 (a : Fin 4096) (j : Fin 1024) (v : Fin 32000) : ridx_main_v21 (ix2 a j) v = ix2 v j :=
  funext fun b => Fin.ext (by match b with | ⟨0, _⟩ => rfl | ⟨1, _⟩ => rfl)

/-! ## The stages -/

section
variable (x0 : (⟨S4096, .i32⟩ : BufTy).Contents (Elt Ideal))
  (x1 x2 x3 : (⟨S32000x1024, .f32⟩ : BufTy).Contents (Elt Ideal))
  (x4 : (⟨S1024x1024, .f32⟩ : BufTy).Contents (Elt Ideal)) (x5 : (⟨S1024, .f32⟩ : BufTy).Contents (Elt Ideal))

/-- The projected keys: the key table times the transposed weights, plus the bias of the column. -/
theorem keys_eq :
    val_main_v11 (F := Ideal) x2 x4 x5 = Spec.projT x2 (val_main_v7 (F := Ideal) x4) x5 := by
  funext i
  obtain ⟨v, k, rfl⟩ : ∃ (v : Fin 32000) (k : Fin 1024), i = ix2 v k := ⟨i 0, i 1, eq_ix2 i⟩
  rw [val_main_v11_apply, val_main_v8_apply, val_main_v10_apply, val_main_v9_apply, idx10_9]
  simp only [lidx8, ridx8, Ideal.addf_def]
  rfl

/-- The scores: row `a` of the gathered queries against row `v` of the projected keys. -/
theorem score_eq (a : Fin 4096) (v : Fin 32000) :
    val_main_v13 (F := Ideal) x0 x1 x2 x4 x5 (ix2 a v)
      = Spec.score (val_main_v6 (F := Ideal) x0 x1) (Spec.projT x2 (val_main_v7 (F := Ideal) x4) x5) a v := by
  rw [val_main_v13_apply]
  unfold Spec.score
  refine Finset.sum_congr rfl fun k _ => ?_
  rw [val_main_v12_apply, lidx13, ridx13_12, keys_eq]

/-- The halved weights:  exp(score) / 2. -/
theorem hwgt_eq (a : Fin 4096) (v : Fin 32000) :
    val_main_v16 (F := Ideal) x0 x1 x2 x4 x5 (ix2 a v)
      = Spec.hwgt (val_main_v6 (F := Ideal) x0 x1) (Spec.projT x2 (val_main_v7 (F := Ideal) x4) x5) a v := by
  rw [val_main_v16_apply, val_main_v14_apply, val_main_v15_apply, val_main_cst_apply, score_eq]
  rfl

/-- The row totals: zero plus the halved weights of the row. -/
theorem htot_eq (a : Fin 4096) :
    val_main_v17 (F := Ideal) x0 x1 x2 x4 x5 (ix1 a)
      = Spec.htot (val_main_v6 (F := Ideal) x0 x1) (Spec.projT x2 (val_main_v7 (F := Ideal) x4) x5) a := by
  rw [val_main_v17_apply, val_main_cst_1_apply]
  unfold Spec.htot
  refine congrArg₂ (· + ·) rfl (Finset.sum_congr rfl fun v _ => ?_)
  rw [idx17, hwgt_eq]

/-- The normalised weights: the halved weight over its row's total. -/
theorem nwgt_eq (a : Fin 4096) (v : Fin 32000) :
    val_main_v20 (F := Ideal) x0 x1 x2 x4 x5 (ix2 a v)
      = Spec.nwgt (val_main_v6 (F := Ideal) x0 x1) (Spec.projT x2 (val_main_v7 (F := Ideal) x4) x5) a v := by
  rw [val_main_v20_apply, val_main_v19_apply, val_main_v18_apply, idx19_18, htot_eq, hwgt_eq]
  rfl

end

/-- The last stage of the reference, as a function of the six arguments, is `Spec.ref` of the gathered queries, the
    projected keys, the value table and the gathered lookup rows. -/
theorem ref_is_spec (x0 : (⟨S4096, .i32⟩ : BufTy).Contents (Elt Ideal))
    (x1 x2 x3 : (⟨S32000x1024, .f32⟩ : BufTy).Contents (Elt Ideal))
    (x4 : (⟨S1024x1024, .f32⟩ : BufTy).Contents (Elt Ideal)) (x5 : (⟨S1024, .f32⟩ : BufTy).Contents (Elt Ideal)) :
    val_main_v33 (F := Ideal) x0 x1 x2 x3 x4 x5
      = Spec.ref (val_main_v6 (F := Ideal) x0 x1) (Spec.projT x2 (val_main_v7 (F := Ideal) x4) x5) x3
          (val_main_v28 (F := Ideal) x0 x3) := by
  funext i
  obtain ⟨a, j, rfl⟩ : ∃ (a : Fin 4096) (j : Fin 1024), i = ix2 a j := ⟨i 0, i 1, eq_ix2 i⟩
  rw [val_main_v33_apply, val_main_v30_apply, val_main_v32_apply, val_main_v29_apply, val_main_v31_apply,
    val_main_cst_4_apply, val_main_cst_5_apply, val_main_v21_apply]
  simp only [lidx21, ridx21, nwgt_eq]
  rfl

end Cert.RefValue

end
-- ==== Proof.RefReal.lean ====
/-
  Gathered rows and transposed weights of real tables are real: every entry of a gather, and of a transpose, is an
  entry of its operand.
-/
import proofs.«110937_j71992241815552_2_alg».proof.Proof.Gen.ReferenceIdeal.Read
import proofs.«110937_j71992241815552_2_alg».proof.Proof.Spec

set_option maxRecDepth 16384

noncomputable section

namespace Cert.RefValue

open Idealize.ShloMosaic Idealize.SL.Sem
open Cert.ReferenceIdeal Cert.ReferenceIdeal.Gen Cert.ReferenceIdeal.Read

theorem query_real (x0 : (⟨S4096, .i32⟩ : BufTy).Contents (Elt Ideal)) {x1 : (⟨S32000x1024, .f32⟩ : BufTy).Contents (Elt Ideal)}
    (h : Spec.IsReal x1) : Spec.IsReal (val_main_v6 (F := Ideal) x0 x1) := fun _ => h _

theorem lookup_real (x0 : (⟨S4096, .i32⟩ : BufTy).Contents (Elt Ideal)) {x3 : (⟨S32000x1024, .f32⟩ : BufTy).Contents (Elt Ideal)}
    (h : Spec.IsReal x3) : Spec.IsReal (val_main_v28 (F := Ideal) x0 x3) := fun _ => h _

theorem wt_real {x4 : (⟨S1024x1024, .f32⟩ : BufTy).Contents (Elt Ideal)}
    (h : Spec.IsReal x4) : Spec.IsReal (val_main_v7 (F := Ideal) x4) := fun _ => h _

end Cert.RefValue

end
-- ==== Proof.Law.lean ====
/-
  The one law that joins the two programs: where every entry is a real number, normalising halved weights before the
  value product is multiplying the plain weighted sum by the reciprocal of the plain row sum.

  With real scores every weight  e = exp(score)  is a positive real, so the row sum  S = Σ e  is a positive real;
  the halved weights sum to  S / 2 ≠ 0 , the normalised weight is  (e / 2) / (S / 2) = e / S , and
  Σ_v (e_v / S) · val_v = (Σ_v e_v · val_v) · (1 / S) .  Over the extended reals the steps that cancel or distribute
  need finiteness, which is why the arrays are assumed real; the sums themselves are carried into the reals.
-/
import proofs.«110937_j71992241815552_2_alg».proof.Proof.Spec
import Mathlib

set_option maxRecDepth 16384

noncomputable section

namespace Cert.Spec

open Idealize.ShloMosaic Idealize.ShloMosaic.ValueIdx

/-! ### Finite sums of reals, carried through the coercion -/

/-- A finite sum of coerced reals is the coercion of the real sum. -/
theorem coe_finset_sum {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-! ### The four literals -/

theorem half_eq : half = ((1 / 2 : ℝ) : EReal) := by
  simp [half, Ideal.ofBits, Ideal.ieee, -EReal.coe_mul]; norm_num

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

theorem zero_eq : zero = ((0 : ℝ) : EReal) := by
  simp [zero, Ideal.ofBits, Ideal.ieee]

/-- Projected keys of real tables are real. -/
theorem projT_real {key : Mat 32000 1024} {wt : Mat 1024 1024} {b : Col 1024}
    (hk : IsReal key) (hw : IsReal wt) (hb : IsReal b) : IsReal (projT key wt b) := by
  choose kr hkr using hk
  choose wr hwr using hw
  choose br hbr using hb
  intro i
  refine ⟨(∑ d : Fin 1024, kr (ix2 (i 0) d) * wr (ix2 d (i 1))) + br (ix1 (i 1)), ?_⟩
  unfold projT
  simp only [hkr, hwr, hbr, ← EReal.coe_mul]
  rw [coe_finset_sum, ← EReal.coe_add]

/-! ### Each function of the two programs at real arrays, as the coercion of a real expression -/

section Real
variable {q : Mat 4096 1024} {p val : Mat 32000 1024} {vl : Mat 4096 1024}
variable {qr : (⟨2, ![4096, 1024]⟩ : Shape).Idx → ℝ} {pr vr : (⟨2, ![32000, 1024]⟩ : Shape).Idx → ℝ}

/-- The real score  Σ_k q[i, k] · p[v, k]. -/
def scoreR (qr : (⟨2, ![4096, 1024]⟩ : Shape).Idx → ℝ) (pr : (⟨2, ![32000, 1024]⟩ : Shape).Idx → ℝ)
    (i : Fin 4096) (v : Fin 32000) : ℝ := ∑ k : Fin 1024, qr (ix2 i k) * pr (ix2 v k)

/-- The real weight  exp(score), a positive real. -/
def wgtR (qr : (⟨2, ![4096, 1024]⟩ : Shape).Idx → ℝ) (pr : (⟨2, ![32000, 1024]⟩ : Shape).Idx → ℝ)
    (i : Fin 4096) (v : Fin 32000) : ℝ := Real.exp (scoreR qr pr i v)

theorem wgtR_pos (i : Fin 4096) (v : Fin 32000) : 0 < wgtR qr pr i v := Real.exp_pos _

/-- The real row sum  Σ_v e[i, v], a positive real: a sum of positive reals over a nonempty index set. -/
def sumR (qr : (⟨2, ![4096, 1024]⟩ : Shape).Idx → ℝ) (pr : (⟨2, ![32000, 1024]⟩ : Shape).Idx → ℝ)
    (i : Fin 4096) : ℝ := ∑ v : Fin 32000, wgtR qr pr i v

theorem sumR_pos (i : Fin 4096) : 0 < sumR qr pr i :=
  Finset.sum_pos (fun v _ => wgtR_pos i v) ⟨(0 : Fin 32000), Finset.mem_univ _⟩

theorem score_coe (hq : ∀ i, q i = (qr i : EReal)) (hp : ∀ i, p i = (pr i : EReal)) (i : Fin 4096) (v : Fin 32000) :
    score q p i v = (scoreR qr pr i v : EReal) := by
  unfold score scoreR
  simp only [hq, hp, ← EReal.coe_mul]
  rw [coe_finset_sum]

theorem wgt_coe (hq : ∀ i, q i = (qr i : EReal)) (hp : ∀ i, p i = (pr i : EReal)) (i : Fin 4096) (v : Fin 32000) :
    wgt q p i v = (wgtR qr pr i v : EReal) := by
  unfold wgt wgtR
  rw [score_coe hq hp, Ideal.exp_coe]

theorem rowSum_coe (hq : ∀ i, q i = (qr i : EReal)) (hp : ∀ i, p i = (pr i : EReal)) (i : Fin 4096) :
    rowSum q p i = (sumR qr pr i : EReal) := by
  unfold rowSum sumR
  simp only [wgt_coe hq hp]
  rw [coe_finset_sum]

theorem valSum_coe (hq : ∀ i, q i = (qr i : EReal)) (hp : ∀ i, p i = (pr i : EReal))
    (hv : ∀ i, val i = (vr i : EReal)) (i : Fin 4096) (j : Fin 1024) :
    valSum q p val i j = ((∑ v : Fin 32000, wgtR qr pr i v * vr (ix2 v j) : ℝ) : EReal) := by
  unfold valSum
  simp only [wgt_coe hq hp, hv, ← EReal.coe_mul]
  rw [coe_finset_sum]

/-- The halved weight is the real  e / 2. -/
theorem hwgt_coe (hq : ∀ i, q i = (qr i : EReal)) (hp : ∀ i, p i = (pr i : EReal)) (i : Fin 4096) (v : Fin 32000) :
    hwgt q p i v = ((wgtR qr pr i v * (1 / 2) : ℝ) : EReal) := by
  unfold hwgt
  rw [two_eq, Ideal.div_coe (by norm_num : (2 : ℝ) ≠ 0), wgt_coe hq hp, ← EReal.coe_mul]

/-- The halved weights sum to the real  S / 2. -/
theorem htot_coe (hq : ∀ i, q i = (qr i : EReal)) (hp : ∀ i, p i = (pr i : EReal)) (i : Fin 4096) :
    htot q p i = ((sumR qr pr i * (1 / 2) : ℝ) : EReal) := by
  unfold htot
  simp only [hwgt_coe hq hp]
  rw [coe_finset_sum, zero_eq, ← EReal.coe_add, zero_add, ← Finset.sum_mul]
  rfl

/-- The normalised weight is the real  (e / 2) / (S / 2). -/
theorem nwgt_coe (hq : ∀ i, q i = (qr i : EReal)) (hp : ∀ i, p i = (pr i : EReal)) (i : Fin 4096) (v : Fin 32000) :
    nwgt q p i v = ((wgtR qr pr i v * (1 / 2) * (1 / (sumR qr pr i * (1 / 2))) : ℝ) : EReal) := by
  unfold nwgt
  have hS : sumR qr pr i * (1 / 2) ≠ 0 := by
    have := sumR_pos (qr := qr) (pr := pr) i
    positivity
  rw [htot_coe hq hp, Ideal.div_coe hS, hwgt_coe hq hp, ← EReal.coe_mul]

end Real

/-! ### The identity in the reals -/

/-- Normalising halved weights before the value product is multiplying the weighted sum by the reciprocal of the
    row sum, for any real weights with a nonzero sum. -/
theorem real_law {ι : Type} (s : Finset ι) (e w : ι → ℝ) (l S : ℝ) (hS : S ≠ 0) :
    1 / 2 * l + 1 / 2 * (∑ v ∈ s, e v * w v) * (1 * (1 / S))
      = 1 / 2 * l + 1 / 2 * ∑ v ∈ s, e v * (1 / 2) * (1 / (S * (1 / 2))) * w v := by
  have h : ∀ v, e v * (1 / 2) * (1 / (S * (1 / 2))) * w v = (e v * w v) * (1 / S) := by
    intro v; field_simp
  simp only [h]
  rw [← Finset.sum_mul]
  ring

/-- The two results at one row `a` and one column `j`, the lookup entry there being the real `l`. -/
theorem kern_ref_at {q : Mat 4096 1024} {p val : Mat 32000 1024}
    {qr : (⟨2, ![4096, 1024]⟩ : Shape).Idx → ℝ} {pr vr : (⟨2, ![32000, 1024]⟩ : Shape).Idx → ℝ}
    (hq : ∀ i, q i = (qr i : EReal)) (hp : ∀ i, p i = (pr i : EReal)) (hv : ∀ i, val i = (vr i : EReal))
    (a : Fin 4096) (j : Fin 1024) (l : ℝ) :
    half * (l : EReal) + (half * valSum q p val a j) * Ideal.div one (rowSum q p a)
      = half * (l : EReal) + half * ∑ v : Fin 32000, nwgt q p a v * val (ix2 v j) := by
  have hS : sumR qr pr a ≠ 0 := (sumR_pos (qr := qr) (pr := pr) a).ne'
  simp only [nwgt_coe hq hp, hv, ← EReal.coe_mul]
  rw [coe_finset_sum, valSum_coe hq hp hv, rowSum_coe hq hp, half_eq, one_eq,
    Ideal.div_coe hS, ← EReal.coe_mul, ← EReal.coe_mul, ← EReal.coe_mul, ← EReal.coe_mul, ← EReal.coe_add,
    ← EReal.coe_mul, ← EReal.coe_add, real_law _ _ _ _ _ hS]

/-- On real arrays the kernel's function and the reference's are one. -/
theorem kern_eq_ref {q : Mat 4096 1024} {p val : Mat 32000 1024} {vl : Mat 4096 1024}
    (hq : IsReal q) (hp : IsReal p) (hv : IsReal val) (hl : IsReal vl) : kern q p val vl = ref q p val vl := by
  choose qr hqr using hq
  choose pr hpr using hp
  choose vr hvr using hv
  choose lr hlr using hl
  funext i
  unfold kern ref
  rw [hlr]
  exact kern_ref_at hqr hpr hvr (i 0) (i 1) (lr i)

end Cert.Spec

end
-- ==== Proof.Finite.lean ====
/-
  From the precondition to real entries: the precondition says of each float argument that every entry's absolute
  value is below +∞, the five statements joined by `and`; an extended real whose absolute value is below +∞ is a
  real number.
-/
import proofs.«110937_j71992241815552_2_alg».proof.Defs
import proofs.«110937_j71992241815552_2_alg».proof.Proof.Gen.Pre_finite_inputs
import proofs.«110937_j71992241815552_2_alg».proof.Proof.Spec
import Idealize.ShloMosaic.Lib.ReduceAll
import Idealize.ShloMosaic.Lib.ValueIdx

set_option maxRecDepth 16384

noncomputable section

namespace Cert.Finite

open Idealize.ShloMosaic Idealize.ShloMosaic.TcCoe Idealize.SL.Sem

open Cert.Pre_finite_inputs in
/-- The shape of a scalar has exactly one index: there is no axis to give a coordinate on. -/
instance : Subsingleton S_.Idx := ⟨fun a b => funext fun d => d.elim0⟩

/-- The bit pattern 0x7F800000 denotes +∞. -/
theorem inf_eq_top : Ideal.ofBits .f32 0x7F800000#32 = (⊤ : EReal) := by simp [Ideal.ofBits, Ideal.ieee]

/-- An extended real whose absolute value `max x (-x)` lies below +∞ is a real number: -∞ has absolute value +∞,
    and so has +∞. -/
theorem real_of_abs_lt_top (x : EReal) (h : max x (-x) < ⊤) : ∃ r : ℝ, x = (r : EReal) := by
  induction x using EReal.rec with
  | bot => simp at h
  | coe r => exact ⟨r, rfl⟩
  | top => simp at h

/-- A comparison word that is 1 says the comparison holds. -/
theorem ofBool_eq_one (b : Bool) : BitVec.ofBool b = 1#1 ↔ b = true := by cases b <;> decide

open Cert.Pre_finite_inputs in
/-- `all (|x| < +∞)` read back, for an array `x` of any shape: when the conjunction over every index of the
    comparison `|x i| < +∞` is 1, each entry of `x` is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    Spec.IsReal x := by
  intro i
  have hi := Host.reduce_andi_all _ _ hr hu j e i
  have hi' : Ideal.cmp .olt (max (x i) (-(x i))) (Ideal.ofBits .f32 0x7F800000#32) = 1#1 := hi
  rw [inf_eq_top] at hi'
  unfold Ideal.cmp at hi'
  rw [ofBool_eq_one] at hi'
  exact real_of_abs_lt_top (x i) (of_decide_eq_true hi')

/-- Under the precondition every entry of each of the five float arguments is a real number, on every core. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Spec.IsReal (m ((c.tc : Thread Cert.KernelIdeal.nD Cert.KernelIdeal.τ).loc Cert.KernelIdeal.main_arg1))
    ∧ Spec.IsReal (m ((c.tc : Thread Cert.KernelIdeal.nD Cert.KernelIdeal.τ).loc Cert.KernelIdeal.main_arg2))
    ∧ Spec.IsReal (m ((c.tc : Thread Cert.KernelIdeal.nD Cert.KernelIdeal.τ).loc Cert.KernelIdeal.main_arg3))
    ∧ Spec.IsReal (m ((c.tc : Thread Cert.KernelIdeal.nD Cert.KernelIdeal.τ).loc Cert.KernelIdeal.main_arg4))
    ∧ Spec.IsReal (m ((c.tc : Thread Cert.KernelIdeal.nD Cert.KernelIdeal.τ).loc Cert.KernelIdeal.main_arg5)) := by
  have h0 := congrFun (h c) ValueIdx.ix0
  unfold Cert.Pre_finite_inputs.fn Cert.Pre_finite_inputs.fn_part1 at h0
  dsimp only [andi] at h0
  simp only [IntOp.andi_eq_one] at h0
  obtain ⟨⟨⟨⟨h1, h2⟩, h3⟩, h4⟩, h5⟩ := h0
  exact ⟨isReal_of_all _ _ _ _ _ h1, isReal_of_all _ _ _ _ _ h2, isReal_of_all _ _ _ _ _ h3,
    isReal_of_all _ _ _ _ _ h4, isReal_of_all _ _ _ _ _ h5⟩

end Cert.Finite

end
-- ==== Proof.lean ====
/-
  The certificate of the retrieval kernel against its reference.

  The kernel program gathers query rows and lookup rows by an index array, transposes the weights, and runs two
  kernel regions.  The first projects the key table, keys · Wᵀ + b, block of 800 rows by block, and copies the value
  table.  The second, for each block of 1024 query rows, walks the 32000 table rows in 50 blocks of 640, keeping a
  running row sum of the weights  e = exp(q · kᵀ)  in a scratch column and a running sum of  e · v  in its output
  block, and at the last table block replaces the output block by  ½ · lookup + (½ · Σ e·v) · (1 / Σ e).  The
  reference computes  ½ · lookup + ½ · Σ_v ((e_v / 2) / Σ_u (e_u / 2)) · v  on the host.

  FRAMES.  Each kernel program runs to the end, faults nowhere and leaves its arguments as launched: its @main is a
  stretch of host operations and two regions, each region's body run at every grid point from what the point before
  left (the first region keeps nothing between points; the second keeps the output block and the scratch column
  along a row block).  The same proof text serves the word-level program and the idealized one, which print the
  same operations.  The reference has no kernel: its frame is its run with the result dropped.

  PRESERVES.  The idealization rewrote no operation, so there is nothing to state.

  ALGEBRAIC.  At the ideal instance a change of float format is the identity, a product into a zero accumulator is
  the plain sum of products and a running total over blocks is the total over all rows, so the kernel's result is
  `Spec.kern` of the gathered queries, the projected keys, the value table and the gathered lookup rows, and the
  reference's is `Spec.ref` of the same four arrays (the gathers and the transpose are the same host operations on
  both sides and are never opened).  Under the precondition every entry is a real number, every weight is a
  positive real, and then the two functions agree: (e_v / 2) / (S / 2) = e_v / S.
-/
import proofs.«110937_j71992241815552_2_alg».proof.Defs
import proofs.«110937_j71992241815552_2_alg».proof.Proof.Gen.Kernel
import proofs.«110937_j71992241815552_2_alg».proof.Proof.Gen.KernelIdeal
import proofs.«110937_j71992241815552_2_alg».proof.Proof.Gen.ReferenceIdeal
import proofs.«110937_j71992241815552_2_alg».proof.Proof.Gen.ReferenceIdeal.Read
import proofs.«110937_j71992241815552_2_alg».proof.Proof.Gen.Pre_finite_inputs
import proofs.«110937_j71992241815552_2_alg».proof.Proof.K.Whole
import proofs.«110937_j71992241815552_2_alg».proof.Proof.KI.Whole
import proofs.«110937_j71992241815552_2_alg».proof.Proof.KI.Result
import proofs.«110937_j71992241815552_2_alg».proof.Proof.Ref
import proofs.«110937_j71992241815552_2_alg».proof.Proof.RefReal
import proofs.«110937_j71992241815552_2_alg».proof.Proof.Law
import proofs.«110937_j71992241815552_2_alg».proof.Proof.Finite
import Idealize.ShloMosaic.Adequacy
import Idealize.ShloMosaic.Init

noncomputable section

namespace Cert.Proof

open Idealize.ShloMosaic Idealize.ShloMosaic.TcCoe Idealize.SL.Sem

/-- The witnesses of the stated side conditions, as instances for the claims below. -/
instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ =>
  (θ_run (Cert.Kernel.defs (F := Bits)) _ _).mono (fun _ h c =>
    ⟨(h c _ (Cert.Kernel.Whole.mem_uc Cert.Kernel.main_arg0 (by decide))).trans (Cert.Kernel.Whole.W3_main_arg0 m c),
     (h c _ (Cert.Kernel.Whole.mem_uc Cert.Kernel.main_arg1 (by decide))).trans (Cert.Kernel.Whole.W3_main_arg1 m c),
     (h c _ (Cert.Kernel.Whole.mem_uc Cert.Kernel.main_arg2 (by decide))).trans (Cert.Kernel.Whole.W3_main_arg2 m c),
     (h c _ (Cert.Kernel.Whole.mem_uc Cert.Kernel.main_arg3 (by decide))).trans (Cert.Kernel.Whole.W3_main_arg3 m c),
     (h c _ (Cert.Kernel.Whole.mem_uc Cert.Kernel.main_arg4 (by decide))).trans (Cert.Kernel.Whole.W3_main_arg4 m c),
     (h c _ (Cert.Kernel.Whole.mem_uc Cert.Kernel.main_arg5 (by decide))).trans (Cert.Kernel.Whole.W3_main_arg5 m c)⟩)
    (Cert.Kernel.Whole.run_all (F := Bits) m ρ)

theorem frame_ki : Cert.frame_KernelIdeal := fun m ρ _ =>
  (θ_run (Cert.KernelIdeal.defs (F := Ideal)) _ _).mono (fun _ h c =>
    ⟨(h c _ (Cert.KernelIdeal.Whole.mem_uc Cert.KernelIdeal.main_arg0 (by decide))).trans (Cert.KernelIdeal.Whole.W3_main_arg0 m c),
     (h c _ (Cert.KernelIdeal.Whole.mem_uc Cert.KernelIdeal.main_arg1 (by decide))).trans (Cert.KernelIdeal.Whole.W3_main_arg1 m c),
     (h c _ (Cert.KernelIdeal.Whole.mem_uc Cert.KernelIdeal.main_arg2 (by decide))).trans (Cert.KernelIdeal.Whole.W3_main_arg2 m c),
     (h c _ (Cert.KernelIdeal.Whole.mem_uc Cert.KernelIdeal.main_arg3 (by decide))).trans (Cert.KernelIdeal.Whole.W3_main_arg3 m c),
     (h c _ (Cert.KernelIdeal.Whole.mem_uc Cert.KernelIdeal.main_arg4 (by decide))).trans (Cert.KernelIdeal.Whole.W3_main_arg4 m c),
     (h c _ (Cert.KernelIdeal.Whole.mem_uc Cert.KernelIdeal.main_arg5 (by decide))).trans (Cert.KernelIdeal.Whole.W3_main_arg5 m c)⟩)
    (Cert.KernelIdeal.Whole.run_all (F := Ideal) m ρ)

theorem frame_ri : Cert.frame_ReferenceIdeal := fun m ρ _ =>
  (θ_run (Cert.ReferenceIdeal.defs (F := Ideal)) _ _).mono (fun _ h c => (h c).2) (Cert.ReferenceIdeal.Value.run (F := Ideal) m ρ)

theorem preserves : Cert.preserves_Kernel_KernelIdeal := trivial

/-- On real arguments the kernel's function of the arguments is the reference's. -/
theorem kern_is_ref (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Result.kernOf m c
      = Cert.ReferenceIdeal.Read.val_main_v33 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  obtain ⟨h1, h2, h3, h4, h5⟩ := Cert.Finite.real_of_pre m hpre c
  rw [Cert.RefValue.ref_is_spec]
  exact Cert.Spec.kern_eq_ref (Cert.RefValue.query_real _ h1)
    (Cert.Spec.projT_real h2 (Cert.RefValue.wt_real h4) h5) h3 (Cert.RefValue.lookup_real _ h3)

theorem algebraic : Cert.algebraic_KernelIdeal_ReferenceIdeal := by
  intro m ρ m' ρ' hpre hagree
  refine ⟨fun c => Cert.KernelIdeal.Result.kernOf m c, ?_, ?_⟩
  · refine (θ_run (Cert.KernelIdeal.defs (F := Ideal)) _ _).mono (fun _ h c => ⟨?_,
      (h c _ (Cert.KernelIdeal.Whole.mem_uc Cert.KernelIdeal.main_arg0 (by decide))).trans (Cert.KernelIdeal.Whole.W3_main_arg0 m c),
      (h c _ (Cert.KernelIdeal.Whole.mem_uc Cert.KernelIdeal.main_arg1 (by decide))).trans (Cert.KernelIdeal.Whole.W3_main_arg1 m c),
      (h c _ (Cert.KernelIdeal.Whole.mem_uc Cert.KernelIdeal.main_arg2 (by decide))).trans (Cert.KernelIdeal.Whole.W3_main_arg2 m c),
      (h c _ (Cert.KernelIdeal.Whole.mem_uc Cert.KernelIdeal.main_arg3 (by decide))).trans (Cert.KernelIdeal.Whole.W3_main_arg3 m c),
      (h c _ (Cert.KernelIdeal.Whole.mem_uc Cert.KernelIdeal.main_arg4 (by decide))).trans (Cert.KernelIdeal.Whole.W3_main_arg4 m c),
      (h c _ (Cert.KernelIdeal.Whole.mem_uc Cert.KernelIdeal.main_arg5 (by decide))).trans (Cert.KernelIdeal.Whole.W3_main_arg5 m c)⟩)
      (Cert.KernelIdeal.Whole.run_all (F := Ideal) m ρ)
    exact (h c _ (Cert.KernelIdeal.Whole.mem_uc Cert.KernelIdeal.main_v18 (by decide))).trans
      (Cert.KernelIdeal.Result.out_is_kern m c)
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v33_eq, (hagree c).1, (hagree c).2.1, (hagree c).2.2.1, (hagree c).2.2.2.1,
      (hagree c).2.2.2.2.1, (hagree c).2.2.2.2.2]
    exact (kern_is_ref m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
